-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x2 : Shape := ⟨2, ![2048, 2]⟩
abbrev S8x2816x1024 : Shape := ⟨3, ![8, 2816, 1024]⟩
abbrev S8x1024x2816 : Shape := ⟨3, ![8, 1024, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S8x2816x1024 : S_.BroadcastsInDim S8x2816x1024 (![] : Fin 0 → Fin S8x2816x1024.rank)
  reducesTo_S8x2816x1024_S_d0_1_2 : S8x2816x1024.ReducesTo [0, 1, 2] S_
  bcast_S_S8x1024x2816 : S_.BroadcastsInDim S8x1024x2816 (![] : Fin 0 → Fin S8x1024x2816.rank)
  reducesTo_S8x1024x2816_S_d0_1_2 : S8x1024x2816.ReducesTo [0, 1, 2] S_

variable [Facts]

def fn_part1 {F : FTy → Type} [FloatOps F] (main_arg4 : FVec F S8x1024x2816 .f32) (main_v13 : IVec S_ 1) (main_v16 : IVec S8x2816x1024 1) : IVec S_ 1 :=
  let main_c_5 : IVec S_ 1 := constantI S_ 1 1#1
  let main_v17 : IVec S_ 1 := (fun x v => Host.reduce IntOp.andi x v reducesTo_S8x2816x1024_S_d0_1_2 h_S_) main_v16 main_c_5
  let main_v18 : IVec S_ 1 := andi main_v13 main_v17
  let main_v19 : FVec F S8x1024x2816 .f32 := Host.absf main_arg4
  let main_cst_6 : FVec F S_ .f32 := constant S_ .f32 0x7F800000#32
  let main_v20 : FVec F S8x1024x2816 .f32 := broadcastInDim S8x1024x2816 ![] bcast_S_S8x1024x2816 main_cst_6
  let main_v21 : IVec S8x1024x2816 1 := cmpf .olt main_v19 main_v20
  let main_c_7 : IVec S_ 1 := constantI S_ 1 1#1
  let main_v22 : IVec S_ 1 := (fun x v => Host.reduce IntOp.andi x v reducesTo_S8x1024x2816_S_d0_1_2 h_S_) main_v21 main_c_7
  let main_v23 : IVec S_ 1 := andi main_v18 main_v22
  main_v23

def fn {F : FTy → Type} [FloatOps F] (main_arg0 : FVec F S2048x1024 .f32) (main_arg1 : FVec F S2048x2 .f32) (main_arg2 : FVec F S8x2816x1024 .f32) (main_arg3 : FVec F S8x2816x1024 .f32) (main_arg4 : FVec F S8x1024x2816 .f32) (main_arg5 : IVec S2048x2 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S8x2816x1024 .f32 := Host.absf main_arg2
  let main_cst_2 : FVec F S_ .f32 := constant S_ .f32 0x7F800000#32
  let main_v10 : FVec F S8x2816x1024 .f32 := broadcastInDim S8x2816x1024 ![] bcast_S_S8x2816x1024 main_cst_2
  let main_v11 : IVec S8x2816x1024 1 := cmpf .olt main_v9 main_v10
  let main_c_3 : IVec S_ 1 := constantI S_ 1 1#1
  let main_v12 : IVec S_ 1 := (fun x v => Host.reduce IntOp.andi x v reducesTo_S8x2816x1024_S_d0_1_2 h_S_) main_v11 main_c_3
  let main_v13 : IVec S_ 1 := andi main_v8 main_v12
  let main_v14 : FVec F S8x2816x1024 .f32 := Host.absf main_arg3
  let main_cst_4 : FVec F S_ .f32 := constant S_ .f32 0x7F800000#32
  let main_v15 : FVec F S8x2816x1024 .f32 := broadcastInDim S8x2816x1024 ![] bcast_S_S8x2816x1024 main_cst_4
  let main_v16 : IVec S8x2816x1024 1 := cmpf .olt main_v14 main_v15
  fn_part1 (F := F) main_arg4 main_v13 main_v16
-- ==== Kernel.lean ====
abbrev S2048x1024 : Shape := ⟨2, ![2048, 1024]⟩
abbrev S2048x2 : Shape := ⟨2, ![2048, 2]⟩
abbrev S8x2816x1024 : Shape := ⟨3, ![8, 2816, 1024]⟩
abbrev S8x1024x2816 : Shape := ⟨3, ![8, 1024, 2816]⟩
abbrev S1024x1024 : Shape := ⟨2, ![1024, 1024]⟩
abbrev S1x256x1024 : Shape := ⟨3, ![1, 256, 1024]⟩
abbrev S1x1024x256 : Shape := ⟨3, ![1, 1024, 256]⟩
abbrev S1024x2 : Shape := ⟨2, ![1024, 2]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2, .f32⟩
  | .hbm, ⟨2, _⟩ => ⟨S8x2816x1024, .f32⟩
  | .hbm, ⟨3, _⟩ => ⟨S8x2816x1024, .f32⟩
  | .hbm, ⟨4, _⟩ => ⟨S8x1024x2816, .f32⟩
  | .hbm, ⟨5, _⟩ => ⟨S2048x2, .i32⟩
  | .hbm, ⟨6, _⟩ => ⟨S2048x1024, .bf16⟩
  | .hbm, ⟨7, _⟩ => ⟨S8x2816x1024, .bf16⟩
  | .hbm, ⟨8, _⟩ => ⟨S8x2816x1024, .bf16⟩
  | .hbm, ⟨9, _⟩ => ⟨S8x1024x2816, .bf16⟩
  | .hbm, ⟨10, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x2, .i32⟩
  | .local _ .vmem, ⟨9, _⟩ => ⟨S1024x2, .i32⟩
  | .local _ .vmem, ⟨10, _⟩ => ⟨S1024x2, .f32⟩
  | .local _ .vmem, ⟨11, _⟩ => ⟨S1024x2, .f32⟩
  | .local _ .vmem, ⟨12, _⟩ => ⟨S1024x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  transposes_S256x1024_p1_0_S1024x256 : S256x1024.Transposes [1, 0] S1024x256
  transposes_S1024x256_p1_0_S256x1024 : S1024x256.Transposes [1, 0] S256x1024
  inb_S1024x2_S1024x2_0_0 : ∀ a, (![0, 0] : Fin 2 → Nat) a + S1024x2.size a ≤ S1024x2.size a
  h_S1024x2 : 0 < S1024x2.numel
  reduces_S1024x2_S1024 : S1024x2.Reduces [1] S1024
  shapeCasts_S1024_S1024x1 : S1024.ShapeCasts S1024x1
  broadcasts_S1024x1_S1024x1024 : S1024x1.Broadcasts S1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2816x1024.size a
  hwx0_1 : ∀ i : grid0.Coords, EltTy.bits .bf16 = 32 ∨ (Rect.block (s := S8x2816x1024) S1x256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2816x1024.size a
  hwx0_2 : ∀ i : grid0.Coords, EltTy.bits .bf16 = 32 ∨ (Rect.block (s := S8x2816x1024) S1x256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x2816.size a
  hwx0_3 : ∀ i : grid0.Coords, EltTy.bits .bf16 = 32 ∨ (Rect.block (s := S8x1024x2816) S1x1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2.size a ≤ S2048x2.size a
  hwx0_4 : ∀ i : grid0.Coords, EltTy.bits .i32 = 32 ∨ (Rect.block (s := S2048x2) S1024x2.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2.size a ≤ S2048x2.size a
  hwx0_5 : ∀ i : grid0.Coords, EltTy.bits .f32 = 32 ∨ (Rect.block (s := S2048x2) S1024x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S2048x1024.size a
  hwx0_6 : ∀ i : grid0.Coords, EltTy.bits .f32 = 32 ∨ (Rect.block (s := S2048x1024) S1024x1024.size (cc0_transform_6 i) (hinb0_6 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048x2 : Shape := ⟨2, ![2048, 2]⟩
abbrev S8x2816x1024 : Shape := ⟨3, ![8, 2816, 1024]⟩
abbrev S8x1024x2816 : Shape := ⟨3, ![8, 1024, 2816]⟩
abbrev S_ : Shape := ⟨0, ![]⟩
abbrev S1x2816x1024 : Shape := ⟨3, ![1, 2816, 1024]⟩
abbrev S2816x1024 : Shape := ⟨2, ![2816, 1024]⟩
abbrev S1024x2816 : Shape := ⟨2, ![1024, 2816]⟩
abbrev S2048x2816 : Shape := ⟨2, ![2048, 2816]⟩
abbrev S1x1024x2816 : Shape := ⟨3, ![1, 1024, 2816]⟩
abbrev S2048 : Shape := ⟨1, ![2048]⟩
abbrev S2048x1 : Shape := ⟨2, ![2048, 1]⟩

abbrev nBuf : Space → Nat
  | .hbm => 288
  | .vmem => 0
  | .smem => 0
  | _ => 0

abbrev hbmTy0_0 (i : Nat) : BufTy := match i % 128 with
  | 0 => ⟨S2048x1024, .f32⟩
  | 1 => ⟨S2048x2, .f32⟩
  | 2 => ⟨S8x2816x1024, .f32⟩
  | 3 => ⟨S8x2816x1024, .f32⟩
  | 4 => ⟨S8x1024x2816, .f32⟩
  | 5 => ⟨S2048x2, .i32⟩
  | 6 => ⟨S_, .f32⟩
  | 7 => ⟨S2048x1024, .f32⟩
  | 8 => ⟨S1x2816x1024, .f32⟩
  | 9 => ⟨S2816x1024, .f32⟩
  | 10 => ⟨S1024x2816, .f32⟩
  | 11 => ⟨S2048x2816, .f32⟩
  | 12 => ⟨S2048x2816, .f32⟩
  | 13 => ⟨S2048x2816, .f32⟩
  | 14 => ⟨S_, .f32⟩
  | 15 => ⟨S2048x2816, .f32⟩
  | 16 => ⟨S2048x2816, .f32⟩
  | 17 => ⟨S_, .f32⟩
  | 18 => ⟨S2048x2816, .f32⟩
  | 19 => ⟨S2048x2816, .f32⟩
  | 20 => ⟨S2048x2816, .f32⟩
  | 21 => ⟨S1x2816x1024, .f32⟩
  | 22 => ⟨S2816x1024, .f32⟩
  | 23 => ⟨S1024x2816, .f32⟩
  | 24 => ⟨S2048x2816, .f32⟩
  | 25 => ⟨S2048x2816, .f32⟩
  | 26 => ⟨S1x1024x2816, .f32⟩
  | 27 => ⟨S1024x2816, .f32⟩
  | 28 => ⟨S2816x1024, .f32⟩
  | 29 => ⟨S2048x1024, .f32⟩
  | 30 => ⟨S_, .i32⟩
  | 31 => ⟨S2048x2, .i32⟩
  | 32 => ⟨S2048x2, .i1⟩
  | 33 => ⟨S_, .f32⟩
  | 34 => ⟨S_, .f32⟩
  | 35 => ⟨S2048x2, .f32⟩
  | 36 => ⟨S2048x2, .f32⟩
  | 37 => ⟨S_, .f32⟩
  | 38 => ⟨S2048, .f32⟩
  | 39 => ⟨S2048x1, .f32⟩
  | 40 => ⟨S2048x1024, .f32⟩
  | 41 => ⟨S2048x1024, .f32⟩
  | 42 => ⟨S2048x1024, .f32⟩
  | 43 => ⟨S1x2816x1024, .f32⟩
  | 44 => ⟨S2816x1024, .f32⟩
  | 45 => ⟨S1024x2816, .f32⟩
  | 46 => ⟨S2048x2816, .f32⟩
  | 47 => ⟨S2048x2816, .f32⟩
  | 48 => ⟨S2048x2816, .f32⟩
  | 49 => ⟨S_, .f32⟩
  | 50 => ⟨S2048x2816, .f32⟩
  | 51 => ⟨S2048x2816, .f32⟩
  | 52 => ⟨S_, .f32⟩
  | 53 => ⟨S2048x2816, .f32⟩
  | 54 => ⟨S2048x2816, .f32⟩
  | 55 => ⟨S2048x2816, .f32⟩
  | 56 => ⟨S1x2816x1024, .f32⟩
  | 57 => ⟨S2816x1024, .f32⟩
  | 58 => ⟨S1024x2816, .f32⟩
  | 59 => ⟨S2048x2816, .f32⟩
  | 60 => ⟨S2048x2816, .f32⟩
  | 61 => ⟨S1x1024x2816, .f32⟩
  | 62 => ⟨S1024x2816, .f32⟩
  | 63 => ⟨S2816x1024, .f32⟩
  | 64 => ⟨S2048x1024, .f32⟩
  | 65 => ⟨S_, .i32⟩
  | 66 => ⟨S2048x2, .i32⟩
  | 67 => ⟨S2048x2, .i1⟩
  | 68 => ⟨S_, .f32⟩
  | 69 => ⟨S_, .f32⟩
  | 70 => ⟨S2048x2, .f32⟩
  | 71 => ⟨S2048x2, .f32⟩
  | 72 => ⟨S_, .f32⟩
  | 73 => ⟨S2048, .f32⟩
  | 74 => ⟨S2048x1, .f32⟩
  | 75 => ⟨S2048x1024, .f32⟩
  | 76 => ⟨S2048x1024, .f32⟩
  | 77 => ⟨S2048x1024, .f32⟩
  | 78 => ⟨S1x2816x1024, .f32⟩
  | 79 => ⟨S2816x1024, .f32⟩
  | 80 => ⟨S1024x2816, .f32⟩
  | 81 => ⟨S2048x2816, .f32⟩
  | 82 => ⟨S2048x2816, .f32⟩
  | 83 => ⟨S2048x2816, .f32⟩
  | 84 => ⟨S_, .f32⟩
  | 85 => ⟨S2048x2816, .f32⟩
  | 86 => ⟨S2048x2816, .f32⟩
  | 87 => ⟨S_, .f32⟩
  | 88 => ⟨S2048x2816, .f32⟩
  | 89 => ⟨S2048x2816, .f32⟩
  | 90 => ⟨S2048x2816, .f32⟩
  | 91 => ⟨S1x2816x1024, .f32⟩
  | 92 => ⟨S2816x1024, .f32⟩
  | 93 => ⟨S1024x2816, .f32⟩
  | 94 => ⟨S2048x2816, .f32⟩
  | 95 => ⟨S2048x2816, .f32⟩
  | 96 => ⟨S1x1024x2816, .f32⟩
  | 97 => ⟨S1024x2816, .f32⟩
  | 98 => ⟨S2816x1024, .f32⟩
  | 99 => ⟨S2048x1024, .f32⟩
  | 100 => ⟨S_, .i32⟩
  | 101 => ⟨S2048x2, .i32⟩
  | 102 => ⟨S2048x2, .i1⟩
  | 103 => ⟨S_, .f32⟩
  | 104 => ⟨S_, .f32⟩
  | 105 => ⟨S2048x2, .f32⟩
  | 106 => ⟨S2048x2, .f32⟩
  | 107 => ⟨S_, .f32⟩
  | 108 => ⟨S2048, .f32⟩
  | 109 => ⟨S2048x1, .f32⟩
  | 110 => ⟨S2048x1024, .f32⟩
  | 111 => ⟨S2048x1024, .f32⟩
  | 112 => ⟨S2048x1024, .f32⟩
  | 113 => ⟨S1x2816x1024, .f32⟩
  | 114 => ⟨S2816x1024, .f32⟩
  | 115 => ⟨S1024x2816, .f32⟩
  | 116 => ⟨S2048x2816, .f32⟩
  | 117 => ⟨S2048x2816, .f32⟩
  | 118 => ⟨S2048x2816, .f32⟩
  | 119 => ⟨S_, .f32⟩
  | 120 => ⟨S2048x2816, .f32⟩
  | 121 => ⟨S2048x2816, .f32⟩
  | 122 => ⟨S_, .f32⟩
  | 123 => ⟨S2048x2816, .f32⟩
  | 124 => ⟨S2048x2816, .f32⟩
  | 125 => ⟨S2048x2816, .f32⟩
  | 126 => ⟨S1x2816x1024, .f32⟩
  | 127 => ⟨S2816x1024, .f32⟩
  | _ => ⟨S2048x1024, .f32⟩

abbrev hbmTy0_1 (i : Nat) : BufTy := match i % 128 with
  | 0 => ⟨S1024x2816, .f32⟩
  | 1 => ⟨S2048x2816, .f32⟩
  | 2 => ⟨S2048x2816, .f32⟩
  | 3 => ⟨S1x1024x2816, .f32⟩
  | 4 => ⟨S1024x2816, .f32⟩
  | 5 => ⟨S2816x1024, .f32⟩
  | 6 => ⟨S2048x1024, .f32⟩
  | 7 => ⟨S_, .i32⟩
  | 8 => ⟨S2048x2, .i32⟩
  | 9 => ⟨S2048x2, .i1⟩
  | 10 => ⟨S_, .f32⟩
  | 11 => ⟨S_, .f32⟩
  | 12 => ⟨S2048x2, .f32⟩
  | 13 => ⟨S2048x2, .f32⟩
  | 14 => ⟨S_, .f32⟩
  | 15 => ⟨S2048, .f32⟩
  | 16 => ⟨S2048x1, .f32⟩
  | 17 => ⟨S2048x1024, .f32⟩
  | 18 => ⟨S2048x1024, .f32⟩
  | 19 => ⟨S2048x1024, .f32⟩
  | 20 => ⟨S1x2816x1024, .f32⟩
  | 21 => ⟨S2816x1024, .f32⟩
  | 22 => ⟨S1024x2816, .f32⟩
  | 23 => ⟨S2048x2816, .f32⟩
  | 24 => ⟨S2048x2816, .f32⟩
  | 25 => ⟨S2048x2816, .f32⟩
  | 26 => ⟨S_, .f32⟩
  | 27 => ⟨S2048x2816, .f32⟩
  | 28 => ⟨S2048x2816, .f32⟩
  | 29 => ⟨S_, .f32⟩
  | 30 => ⟨S2048x2816, .f32⟩
  | 31 => ⟨S2048x2816, .f32⟩
  | 32 => ⟨S2048x2816, .f32⟩
  | 33 => ⟨S1x2816x1024, .f32⟩
  | 34 => ⟨S2816x1024, .f32⟩
  | 35 => ⟨S1024x2816, .f32⟩
  | 36 => ⟨S2048x2816, .f32⟩
  | 37 => ⟨S2048x2816, .f32⟩
  | 38 => ⟨S1x1024x2816, .f32⟩
  | 39 => ⟨S1024x2816, .f32⟩
  | 40 => ⟨S2816x1024, .f32⟩
  | 41 => ⟨S2048x1024, .f32⟩
  | 42 => ⟨S_, .i32⟩
  | 43 => ⟨S2048x2, .i32⟩
  | 44 => ⟨S2048x2, .i1⟩
  | 45 => ⟨S_, .f32⟩
  | 46 => ⟨S_, .f32⟩
  | 47 => ⟨S2048x2, .f32⟩
  | 48 => ⟨S2048x2, .f32⟩
  | 49 => ⟨S_, .f32⟩
  | 50 => ⟨S2048, .f32⟩
  | 51 => ⟨S2048x1, .f32⟩
  | 52 => ⟨S2048x1024, .f32⟩
  | 53 => ⟨S2048x1024, .f32⟩
  | 54 => ⟨S2048x1024, .f32⟩
  | 55 => ⟨S1x2816x1024, .f32⟩
  | 56 => ⟨S2816x1024, .f32⟩
  | 57 => ⟨S1024x2816, .f32⟩
  | 58 => ⟨S2048x2816, .f32⟩
  | 59 => ⟨S2048x2816, .f32⟩
  | 60 => ⟨S2048x2816, .f32⟩
  | 61 => ⟨S_, .f32⟩
  | 62 => ⟨S2048x2816, .f32⟩
  | 63 => ⟨S2048x2816, .f32⟩
  | 64 => ⟨S_, .f32⟩
  | 65 => ⟨S2048x2816, .f32⟩
  | 66 => ⟨S2048x2816, .f32⟩
  | 67 => ⟨S2048x2816, .f32⟩
  | 68 => ⟨S1x2816x1024, .f32⟩
  | 69 => ⟨S2816x1024, .f32⟩
  | 70 => ⟨S1024x2816, .f32⟩
  | 71 => ⟨S2048x2816, .f32⟩
  | 72 => ⟨S2048x2816, .f32⟩
  | 73 => ⟨S1x1024x2816, .f32⟩
  | 74 => ⟨S1024x2816, .f32⟩
  | 75 => ⟨S2816x1024, .f32⟩
  | 76 => ⟨S2048x1024, .f32⟩
  | 77 => ⟨S_, .i32⟩
  | 78 => ⟨S2048x2, .i32⟩
  | 79 => ⟨S2048x2, .i1⟩
  | 80 => ⟨S_, .f32⟩
  | 81 => ⟨S_, .f32⟩
  | 82 => ⟨S2048x2, .f32⟩
  | 83 => ⟨S2048x2, .f32⟩
  | 84 => ⟨S_, .f32⟩
  | 85 => ⟨S2048, .f32⟩
  | 86 => ⟨S2048x1, .f32⟩
  | 87 => ⟨S2048x1024, .f32⟩
  | 88 => ⟨S2048x1024, .f32⟩
  | 89 => ⟨S2048x1024, .f32⟩
  | 90 => ⟨S1x2816x1024, .f32⟩
  | 91 => ⟨S2816x1024, .f32⟩
  | 92 => ⟨S1024x2816, .f32⟩
  | 93 => ⟨S2048x2816, .f32⟩
  | 94 => ⟨S2048x2816, .f32⟩
  | 95 => ⟨S2048x2816, .f32⟩
  | 96 => ⟨S_, .f32⟩
  | 97 => ⟨S2048x2816, .f32⟩
  | 98 => ⟨S2048x2816, .f32⟩
  | 99 => ⟨S_, .f32⟩
  | 100 => ⟨S2048x2816, .f32⟩
  | 101 => ⟨S2048x2816, .f32⟩
  | 102 => ⟨S2048x2816, .f32⟩
  | 103 => ⟨S1x2816x1024, .f32⟩
  | 104 => ⟨S2816x1024, .f32⟩
  | 105 => ⟨S1024x2816, .f32⟩
  | 106 => ⟨S2048x2816, .f32⟩
  | 107 => ⟨S2048x2816, .f32⟩
  | 108 => ⟨S1x1024x2816, .f32⟩
  | 109 => ⟨S1024x2816, .f32⟩
  | 110 => ⟨S2816x1024, .f32⟩
  | 111 => ⟨S2048x1024, .f32⟩
  | 112 => ⟨S_, .i32⟩
  | 113 => ⟨S2048x2, .i32⟩
  | 114 => ⟨S2048x2, .i1⟩
  | 115 => ⟨S_, .f32⟩
  | 116 => ⟨S_, .f32⟩
  | 117 => ⟨S2048x2, .f32⟩
  | 118 => ⟨S2048x2, .f32⟩
  | 119 => ⟨S_, .f32⟩
  | 120 => ⟨S2048, .f32⟩
  | 121 => ⟨S2048x1, .f32⟩
  | 122 => ⟨S2048x1024, .f32⟩
  | 123 => ⟨S2048x1024, .f32⟩
  | 124 => ⟨S2048x1024, .f32⟩
  | 125 => ⟨S1x2816x1024, .f32⟩
  | 126 => ⟨S2816x1024, .f32⟩
  | 127 => ⟨S1024x2816, .f32⟩
  | _ => ⟨S2048x1024, .f32⟩

abbrev hbmTy0_2 (i : Nat) : BufTy := match i % 128 with
  | 0 => ⟨S2048x2816, .f32⟩
  | 1 => ⟨S2048x2816, .f32⟩
  | 2 => ⟨S2048x2816, .f32⟩
  | 3 => ⟨S_, .f32⟩
  | 4 => ⟨S2048x2816, .f32⟩
  | 5 => ⟨S2048x2816, .f32⟩
  | 6 => ⟨S_, .f32⟩
  | 7 => ⟨S2048x2816, .f32⟩
  | 8 => ⟨S2048x2816, .f32⟩
  | 9 => ⟨S2048x2816, .f32⟩
  | 10 => ⟨S1x2816x1024, .f32⟩
  | 11 => ⟨S2816x1024, .f32⟩
  | 12 => ⟨S1024x2816, .f32⟩
  | 13 => ⟨S2048x2816, .f32⟩
  | 14 => ⟨S2048x2816, .f32⟩
  | 15 => ⟨S1x1024x2816, .f32⟩
  | 16 => ⟨S1024x2816, .f32⟩
  | 17 => ⟨S2816x1024, .f32⟩
  | 18 => ⟨S2048x1024, .f32⟩
  | 19 => ⟨S_, .i32⟩
  | 20 => ⟨S2048x2, .i32⟩
  | 21 => ⟨S2048x2, .i1⟩
  | 22 => ⟨S_, .f32⟩
  | 23 => ⟨S_, .f32⟩
  | 24 => ⟨S2048x2, .f32⟩
  | 25 => ⟨S2048x2, .f32⟩
  | 26 => ⟨S_, .f32⟩
  | 27 => ⟨S2048, .f32⟩
  | 28 => ⟨S2048x1, .f32⟩
  | 29 => ⟨S2048x1024, .f32⟩
  | 30 => ⟨S2048x1024, .f32⟩
  | 31 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_2 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_call3_v0 : Ref sig .tc := ⟨.hbm, 69, rfl⟩
abbrev main_call3_v1 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_5 : Ref sig .tc := ⟨.hbm, 100, rfl⟩
abbrev main_v59 : Ref sig .tc := ⟨.hbm, 101, rfl⟩
abbrev main_v60 : Ref sig .tc := ⟨.hbm, 102, rfl⟩
abbrev main_cst_6 : Ref sig .tc := ⟨.hbm, 103, rfl⟩
abbrev main_call5_v0 : Ref sig .tc := ⟨.hbm, 104, rfl⟩
abbrev main_call5_v1 : Ref sig .tc := ⟨.hbm, 105, rfl⟩
abbrev main_v61 : Ref sig .tc := ⟨.hbm, 106, rfl⟩
abbrev main_cst_7 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_call6_v0 : Ref sig .tc := ⟨.hbm, 117, rfl⟩
abbrev main_call6_v1 : Ref sig .tc := ⟨.hbm, 118, rfl⟩
abbrev main_call6_cst : Ref sig .tc := ⟨.hbm, 119, rfl⟩
abbrev main_call6_v2 : Ref sig .tc := ⟨.hbm, 120, rfl⟩
abbrev main_call6_v3 : Ref sig .tc := ⟨.hbm, 121, rfl⟩
abbrev main_call6_cst_0 : Ref sig .tc := ⟨.hbm, 122, rfl⟩
abbrev main_call6_v4 : Ref sig .tc := ⟨.hbm, 123, rfl⟩
abbrev main_call6_v5 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_c_8 : Ref sig .tc := ⟨.hbm, 135, rfl⟩
abbrev main_v81 : Ref sig .tc := ⟨.hbm, 136, rfl⟩
abbrev main_v82 : Ref sig .tc := ⟨.hbm, 137, rfl⟩
abbrev main_cst_9 : Ref sig .tc := ⟨.hbm, 138, rfl⟩
abbrev main_call7_v0 : Ref sig .tc := ⟨.hbm, 139, rfl⟩
abbrev main_call7_v1 : Ref sig .tc := ⟨.hbm, 140, rfl⟩
abbrev main_v83 : Ref sig .tc := ⟨.hbm, 141, rfl⟩
abbrev main_cst_10 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_call8_v0 : Ref sig .tc := ⟨.hbm, 152, rfl⟩
abbrev main_call8_v1 : Ref sig .tc := ⟨.hbm, 153, rfl⟩
abbrev main_call8_cst : Ref sig .tc := ⟨.hbm, 154, rfl⟩
abbrev main_call8_v2 : Ref sig .tc := ⟨.hbm, 155, rfl⟩
abbrev main_call8_v3 : Ref sig .tc := ⟨.hbm, 156, rfl⟩
abbrev main_call8_cst_0 : Ref sig .tc := ⟨.hbm, 157, rfl⟩
abbrev main_call8_v4 : Ref sig .tc := ⟨.hbm, 158, rfl⟩
abbrev main_call8_v5 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_c_11 : Ref sig .tc := ⟨.hbm, 170, rfl⟩
abbrev main_v103 : Ref sig .tc := ⟨.hbm, 171, rfl⟩
abbrev main_v104 : Ref sig .tc := ⟨.hbm, 172, rfl⟩
abbrev main_cst_12 : Ref sig .tc := ⟨.hbm, 173, rfl⟩
abbrev main_call9_v0 : Ref sig .tc := ⟨.hbm, 174, rfl⟩
abbrev main_call9_v1 : Ref sig .tc := ⟨.hbm, 175, rfl⟩
abbrev main_v105 : Ref sig .tc := ⟨.hbm, 176, rfl⟩
abbrev main_cst_13 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call10_v0 : Ref sig .tc := ⟨.hbm, 187, rfl⟩
abbrev main_call10_v1 : Ref sig .tc := ⟨.hbm, 188, rfl⟩
abbrev main_call10_cst : Ref sig .tc := ⟨.hbm, 189, rfl⟩
abbrev main_call10_v2 : Ref sig .tc := ⟨.hbm, 190, rfl⟩
abbrev main_call10_v3 : Ref sig .tc := ⟨.hbm, 191, rfl⟩
abbrev main_call10_cst_0 : Ref sig .tc := ⟨.hbm, 192, rfl⟩
abbrev main_call10_v4 : Ref sig .tc := ⟨.hbm, 193, rfl⟩
abbrev main_call10_v5 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_c_14 : Ref sig .tc := ⟨.hbm, 205, rfl⟩
abbrev main_v125 : Ref sig .tc := ⟨.hbm, 206, rfl⟩
abbrev main_v126 : Ref sig .tc := ⟨.hbm, 207, rfl⟩
abbrev main_cst_15 : Ref sig .tc := ⟨.hbm, 208, rfl⟩
abbrev main_call11_v0 : Ref sig .tc := ⟨.hbm, 209, rfl⟩
abbrev main_call11_v1 : Ref sig .tc := ⟨.hbm, 210, rfl⟩
abbrev main_v127 : Ref sig .tc := ⟨.hbm, 211, rfl⟩
abbrev main_cst_16 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_call12_v0 : Ref sig .tc := ⟨.hbm, 222, rfl⟩
abbrev main_call12_v1 : Ref sig .tc := ⟨.hbm, 223, rfl⟩
abbrev main_call12_cst : Ref sig .tc := ⟨.hbm, 224, rfl⟩
abbrev main_call12_v2 : Ref sig .tc := ⟨.hbm, 225, rfl⟩
abbrev main_call12_v3 : Ref sig .tc := ⟨.hbm, 226, rfl⟩
abbrev main_call12_cst_0 : Ref sig .tc := ⟨.hbm, 227, rfl⟩
abbrev main_call12_v4 : Ref sig .tc := ⟨.hbm, 228, rfl⟩
abbrev main_call12_v5 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_c_17 : Ref sig .tc := ⟨.hbm, 240, rfl⟩
abbrev main_v147 : Ref sig .tc := ⟨.hbm, 241, rfl⟩
abbrev main_v148 : Ref sig .tc := ⟨.hbm, 242, rfl⟩
abbrev main_cst_18 : Ref sig .tc := ⟨.hbm, 243, rfl⟩
abbrev main_call13_v0 : Ref sig .tc := ⟨.hbm, 244, rfl⟩
abbrev main_call13_v1 : Ref sig .tc := ⟨.hbm, 245, rfl⟩
abbrev main_v149 : Ref sig .tc := ⟨.hbm, 246, rfl⟩
abbrev main_cst_19 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_call14_v0 : Ref sig .tc := ⟨.hbm, 257, rfl⟩
abbrev main_call14_v1 : Ref sig .tc := ⟨.hbm, 258, rfl⟩
abbrev main_call14_cst : Ref sig .tc := ⟨.hbm, 259, rfl⟩
abbrev main_call14_v2 : Ref sig .tc := ⟨.hbm, 260, rfl⟩
abbrev main_call14_v3 : Ref sig .tc := ⟨.hbm, 261, rfl⟩
abbrev main_call14_cst_0 : Ref sig .tc := ⟨.hbm, 262, rfl⟩
abbrev main_call14_v4 : Ref sig .tc := ⟨.hbm, 263, rfl⟩
abbrev main_call14_v5 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_c_20 : Ref sig .tc := ⟨.hbm, 275, rfl⟩
abbrev main_v169 : Ref sig .tc := ⟨.hbm, 276, rfl⟩
abbrev main_v170 : Ref sig .tc := ⟨.hbm, 277, rfl⟩
abbrev main_cst_21 : Ref sig .tc := ⟨.hbm, 278, rfl⟩
abbrev main_call15_v0 : Ref sig .tc := ⟨.hbm, 279, rfl⟩
abbrev main_call15_v1 : Ref sig .tc := ⟨.hbm, 280, rfl⟩
abbrev main_v171 : Ref sig .tc := ⟨.hbm, 281, rfl⟩
abbrev main_cst_22 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  slices_S8x2816x1024_S1x2816x1024_0_0_0 : S8x2816x1024.Slices ![0, 0, 0] S1x2816x1024
  shapeCasts_S1x2816x1024_S2816x1024 : S1x2816x1024.ShapeCasts S2816x1024
  transposes_S2816x1024_S1024x2816_1_0 : S2816x1024.Transposes [1, 0] S1024x2816
  bcast_S_S2048x2816 : S_.BroadcastsInDim S2048x2816 (![] : Fin 0 → Fin S2048x2816.rank)
  slices_S8x1024x2816_S1x1024x2816_0_0_0 : S8x1024x2816.Slices ![0, 0, 0] S1x1024x2816
  shapeCasts_S1x1024x2816_S1024x2816 : S1x1024x2816.ShapeCasts S1024x2816
  transposes_S1024x2816_S2816x1024_1_0 : S1024x2816.Transposes [1, 0] S2816x1024
  bcast_S_S2048x2 : S_.BroadcastsInDim S2048x2 (![] : Fin 0 → Fin S2048x2.rank)
  reducesTo_S2048x2_S2048_d1 : S2048x2.ReducesTo [1] S2048
  h_S_ : 0 < S_.numel
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  slices_S8x2816x1024_S1x2816x1024_1_0_0 : S8x2816x1024.Slices ![1, 0, 0] S1x2816x1024
  slices_S8x1024x2816_S1x1024x2816_1_0_0 : S8x1024x2816.Slices ![1, 0, 0] S1x1024x2816
  slices_S8x2816x1024_S1x2816x1024_2_0_0 : S8x2816x1024.Slices ![2, 0, 0] S1x2816x1024
  slices_S8x1024x2816_S1x1024x2816_2_0_0 : S8x1024x2816.Slices ![2, 0, 0] S1x1024x2816
  slices_S8x2816x1024_S1x2816x1024_3_0_0 : S8x2816x1024.Slices ![3, 0, 0] S1x2816x1024
  slices_S8x1024x2816_S1x1024x2816_3_0_0 : S8x1024x2816.Slices ![3, 0, 0] S1x1024x2816
  slices_S8x2816x1024_S1x2816x1024_4_0_0 : S8x2816x1024.Slices ![4, 0, 0] S1x2816x1024
  slices_S8x1024x2816_S1x1024x2816_4_0_0 : S8x1024x2816.Slices ![4, 0, 0] S1x1024x2816
  slices_S8x2816x1024_S1x2816x1024_5_0_0 : S8x2816x1024.Slices ![5, 0, 0] S1x2816x1024
  slices_S8x1024x2816_S1x1024x2816_5_0_0 : S8x1024x2816.Slices ![5, 0, 0] S1x1024x2816
  slices_S8x2816x1024_S1x2816x1024_6_0_0 : S8x2816x1024.Slices ![6, 0, 0] S1x2816x1024
  slices_S8x1024x2816_S1x1024x2816_6_0_0 : S8x1024x2816.Slices ![6, 0, 0] S1x1024x2816
  slices_S8x2816x1024_S1x2816x1024_7_0_0 : S8x2816x1024.Slices ![7, 0, 0] S1x2816x1024
  slices_S8x1024x2816_S1x1024x2816_7_0_0 : S8x1024x2816.Slices ![7, 0, 0] S1x1024x2816
  dot_S2048x1024_S1024x2816_S2048x2816_1_0_0_1_n_n_wf : DotDims.WF S2048x1024 S1024x2816 S2048x2816 [1] [0] [0] [1] [] []
  dot_S2048x2816_S2816x1024_S2048x1024_1_0_0_1_n_n_wf : DotDims.WF S2048x2816 S2816x1024 S2048x1024 [1] [0] [0] [1] [] []

variable [Facts₀]

def dot_S2048x1024_S1024x2816_S2048x2816_1_0_0_1_n_n : DotDims S2048x1024 S1024x2816 S2048x2816 where
  lhsContracting := [1]
  rhsContracting := [0]
  lhsNonContracting := [0]
  rhsNonContracting := [1]
  lhsBatch := []
  rhsBatch := []
  wf := dot_S2048x1024_S1024x2816_S2048x2816_1_0_0_1_n_n_wf
def dot_S2048x2816_S2816x1024_S2048x1024_1_0_0_1_n_n : DotDims S2048x2816 S2816x1024 S2048x1024 where
  lhsContracting := [1]
  rhsContracting := [0]
  lhsNonContracting := [0]
  rhsNonContracting := [1]
  lhsBatch := []
  rhsBatch := []
  wf := dot_S2048x2816_S2816x1024_S2048x1024_1_0_0_1_n_n_wf

class Facts : Prop extends Facts₀ where

variable [Facts]
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.KernelPoint.lean ====
/-
  One grid point's contribution, entry by entry.

  At a grid point the body sees a block of 1024 tokens `x0`, a slab of 256 hidden units of one expert's gate and
  up matrices `x1`, `x2` (256 × 1024 each), the matching 256 columns of that expert's down matrix `x3` (1024 × 256),
  and the tokens' routing slots `x4` (expert numbers) and `x5` (weights).  It adds to the running block, at token `p`
  and output feature `j`,

      (∑ f < 256, g f · σ(g f) · u f · x3[j,f]) · (∑ s < 2, [x4[p,s] = e] · x5[p,s]),
      g f = ∑ k, x0[p,k] · x1[f,k],   u f = ∑ k, x0[p,k] · x2[f,k],

  `e` the point's expert coordinate.  Each matrix product is read at one row and one column as a sum over the
  contracted axis; the transposes and the casts that drop a leading unit axis only rename coordinates; a change of
  float format is the identity on exact values.
-/
import proofs.«148728_j11716670783496_1_alg».proof.Proof.Gen.KernelIdeal.Skeleton
import proofs.«148728_j11716670783496_1_alg».proof.Proof.LibMatmulRows
import proofs.«148728_j11716670783496_1_alg».proof.Proof.LibRowOps
import Idealize.ShloMosaic.Lib.ValueLayout

noncomputable section

open scoped BigOperators

namespace Cert.Moe.Point

open Idealize.ShloMosaic Idealize.ShloMosaic.ValueIdx Cert.KernelIdeal Cert.KernelIdeal.Gen

/-- The dimension numbers of the two projections (tokens × features by features × hidden units). -/
abbrev D1 := dot_S1024x1024_S1024x256_S1024x256_1_0_0_1_n_n
/-- The dimension numbers of the down projection (tokens × hidden units by hidden units × features). -/
abbrev D2 := dot_S1024x256_S256x1024_S1024x1024_1_0_0_1_n_n

theorem D1_rank : D1.contr.rank = 1 := rfl
theorem D1_size : D1.contr.size ⟨0, by rw [D1_rank]; omega⟩ = 1024 := rfl
theorem D1_l0 (i : S1024x256.Idx) (q : D1.contr.Idx) : (D1.lhsIdx i q 0).val = (i 0).val := by
  simp [DotDims.lhsIdx, D1, dot_S1024x1024_S1024x256_S1024x256_1_0_0_1_n_n]; rfl
theorem D1_l1 (i : S1024x256.Idx) (q : D1.contr.Idx) : (D1.lhsIdx i q 1).val = (q ⟨0, by rw [D1_rank]; omega⟩).val := by
  simp [DotDims.lhsIdx, D1, dot_S1024x1024_S1024x256_S1024x256_1_0_0_1_n_n]; rfl
theorem D1_r0 (i : S1024x256.Idx) (q : D1.contr.Idx) : (D1.rhsIdx i q 0).val = (q ⟨0, by rw [D1_rank]; omega⟩).val := by
  simp [DotDims.rhsIdx, D1, dot_S1024x1024_S1024x256_S1024x256_1_0_0_1_n_n]; rfl
theorem D1_r1 (i : S1024x256.Idx) (q : D1.contr.Idx) : (D1.rhsIdx i q 1).val = (i 1).val := by
  simp [DotDims.rhsIdx, D1, dot_S1024x1024_S1024x256_S1024x256_1_0_0_1_n_n]; rfl

theorem D2_rank : D2.contr.rank = 1 := rfl
theorem D2_size : D2.contr.size ⟨0, by rw [D2_rank]; omega⟩ = 256 := rfl
theorem D2_l0 (i : S1024x1024.Idx) (q : D2.contr.Idx) : (D2.lhsIdx i q 0).val = (i 0).val := by
  simp [DotDims.lhsIdx, D2, dot_S1024x256_S256x1024_S1024x1024_1_0_0_1_n_n]; rfl
theorem D2_l1 (i : S1024x1024.Idx) (q : D2.contr.Idx) : (D2.lhsIdx i q 1).val = (q ⟨0, by rw [D2_rank]; omega⟩).val := by
  simp [DotDims.lhsIdx, D2, dot_S1024x256_S256x1024_S1024x1024_1_0_0_1_n_n]; rfl
theorem D2_r0 (i : S1024x1024.Idx) (q : D2.contr.Idx) : (D2.rhsIdx i q 0).val = (q ⟨0, by rw [D2_rank]; omega⟩).val := by
  simp [DotDims.rhsIdx, D2, dot_S1024x256_S256x1024_S1024x1024_1_0_0_1_n_n]; rfl
theorem D2_r1 (i : S1024x1024.Idx) (q : D2.contr.Idx) : (D2.rhsIdx i q 1).val = (i 1).val := by
  simp [DotDims.rhsIdx, D2, dot_S1024x256_S256x1024_S1024x1024_1_0_0_1_n_n]; rfl

/-- A projection of the token block onto a slab of hidden units: entry `(p, f)` of `x0 · (slab)ᵀ` is the inner
    product of token `p` with row `f` of the slab. -/
theorem proj_apply (x0 : FVec Ideal S1024x1024 .bf16) (w : FVec Ideal S1x256x1024 .bf16) (p : Fin 1024) (f : Fin 256) :
    matmul D1 none (shapeCast S1024x1024 x0 shapeCasts_S1024x1024_S1024x1024)
        (transpose S1024x256 [1, 0] (shapeCast S256x1024 w shapeCasts_S1x256x1024_S256x1024) transposes_S256x1024_p1_0_S1024x256)
        (constant (F := Ideal) S1024x256 .f32 0x00000000#32) (ix2 p f)
      = ∑ k : Fin 1024, x0 (ix2 p k) * w (ix3 (0 : Fin 1) f k) := by
  refine (Cert.LibMatmulRows.matmul_zero_apply D1 D1_rank D1_size D1_l0 D1_l1 D1_r0 D1_r1 none _ _ p f).trans ?_
  refine Finset.sum_congr rfl fun k _ => ?_
  rw [shapeCast_self, transpose_ix2_apply, shapeCast_1ab_ab_apply]

/-- The hidden activation of the block at token `p` and hidden unit `f` of the slab. -/
def hidB (x0 : FVec Ideal S1024x1024 .bf16) (x1 x2 : FVec Ideal S1x256x1024 .bf16) (p : Fin 1024) (f : Fin 256) : EReal :=
  (∑ k : Fin 1024, x0 (ix2 p k) * x1 (ix3 (0 : Fin 1) f k)) * Ideal.logistic (∑ k : Fin 1024, x0 (ix2 p k) * x1 (ix3 (0 : Fin 1) f k))
    * (∑ k : Fin 1024, x0 (ix2 p k) * x2 (ix3 (0 : Fin 1) f k))

/-- The point's matrix part: the slab's hidden activations against the matching columns of the down matrix. -/
theorem pay3_apply (x0 : FVec Ideal S1024x1024 .bf16) (x1 x2 : FVec Ideal S1x256x1024 .bf16) (x3 : FVec Ideal S1x1024x256 .bf16)
    (p : Fin 1024) (j : Fin 1024) :
    k0_pay3 (F := Ideal) x0 x1 x2 x3 (ix2 p j) = ∑ f : Fin 256, hidB x0 x1 x2 p f * x3 (ix3 (0 : Fin 1) j f) := by
  unfold k0_pay3
  refine (Cert.LibMatmulRows.matmul_zero_apply D2 D2_rank D2_size D2_l0 D2_l1 D2_r0 D2_r1 none _ _ p j).trans ?_
  refine Finset.sum_congr rfl fun f _ => ?_
  rw [truncf_apply, mulf_apply, mulf_apply, transpose_ix2_apply, shapeCast_1ab_ab_apply]
  show (_ * FloatOps.logistic _) * _ * _ = _
  rw [Ideal.logistic_def, proj_apply x0 x1 p f, proj_apply x0 x2 p f]
  rfl

/-- One slot's contribution to the point's expert `n`. -/
def slotB (n : ℕ) (x4 : IVec S1024x2 32) (x5 : FVec Ideal S1024x2 .f32) (p : Fin 1024) (s : Fin 2) : EReal :=
  Scalar.select (Scalar.cmpi .eq (x4 (ix2 p s)) (BitVec.ofNat 32 n)) (x5 (ix2 p s)) (0 : EReal)

/-- The point's routing column: at token `p` the sum over the two slots. -/
theorem pay4_apply (i : grid0.Coords) (x4 : IVec S1024x2 32) (x5 : FVec Ideal S1024x2 .f32) (p : Fin 1024) (u : Fin 1) :
    k0_pay4 (F := Ideal) i x4 x5 (ix2 p u) = ∑ s : Fin 2, slotB (i 1).val x4 x5 p s := by
  unfold k0_pay4
  dsimp only
  rw [Cert.LibRowOps.shapeCast_a_a1_apply]
  refine (Cert.LibRowOps.rowSum_apply _ reduces_S1024x2_S1024 (.inl rfl) rfl p).trans ?_
  refine Finset.sum_congr rfl fun s _ => ?_
  rw [select_apply]
  show Scalar.select _ _ (Ideal.ofBits .f32 0x00000000#32) = _
  rw [Ideal.ofBits_zero_f32]
  rfl

/-- What the point adds at token `p` and feature `j`. -/
def addend (i : grid0.Coords) (x0 : FVec Ideal S1024x1024 .bf16) (x1 x2 : FVec Ideal S1x256x1024 .bf16)
    (x3 : FVec Ideal S1x1024x256 .bf16) (x4 : IVec S1024x2 32) (x5 : FVec Ideal S1024x2 .f32) (p j : Fin 1024) : EReal :=
  (∑ f : Fin 256, hidB x0 x1 x2 p f * x3 (ix3 (0 : Fin 1) j f)) * ∑ s : Fin 2, slotB (i 1).val x4 x5 p s

/-- The point's store: the running block plus the addend. -/
theorem pay1_apply (i : grid0.Coords) (x0 : FVec Ideal S1024x1024 .bf16) (x1 x2 : FVec Ideal S1x256x1024 .bf16)
    (x3 : FVec Ideal S1x1024x256 .bf16) (x4 : IVec S1024x2 32) (x5 : FVec Ideal S1024x2 .f32)
    (acc : FVec Ideal S1024x1024 .f32) (p j : Fin 1024) :
    k0_pay1 (F := Ideal) (k0_pay3 x0 x1 x2 x3) (k0_pay4 i x4 x5) acc (ix2 p j)
      = acc (ix2 p j) + addend i x0 x1 x2 x3 x4 x5 p j := by
  unfold k0_pay1
  rw [addf_apply, mulf_apply, shapeCast_self, Cert.LibRowOps.broadcastTo_a1_ab_apply, pay3_apply, pay4_apply]
  rfl

/-- The reset value: zero everywhere. -/
theorem pay2_apply (y : S1024x1024.Idx) : k0_pay2 (F := Ideal) y = 0 := by
  unfold k0_pay2
  show Ideal.ofBits .f32 0x00000000#32 = 0
  exact Ideal.ofBits_zero_f32

end Cert.Moe.Point

end
-- ==== Proof.KernelFold.lean ====
/-
  The running block as a sum of the points' contributions.

  Along one token tile's 88 consecutive points (8 experts × 11 hidden tiles) the output block is set to zero at the
  first point and every point adds its contribution (the first one after the reset), so after the last point the
  block holds zero plus the sum of the 88 contributions.  Only associativity of `+` is used.
-/
import proofs.«148728_j11716670783496_1_alg».proof.Proof.Gen.KernelIdeal.Value
import proofs.«148728_j11716670783496_1_alg».proof.Proof.KernelPoint

noncomputable section

open scoped BigOperators

namespace Cert.Moe.Fold

open Idealize.ShloMosaic Idealize.ShloMosaic.ValueIdx Idealize.ShloMosaic.TcCoe Idealize.SL.Sem Cert.KernelIdeal Cert.KernelIdeal.Gen
  Cert.KernelIdeal.Value

variable (m : (ℓ : Loc nD τ sig) → Buf (Elt Ideal) ℓ)

/-- What point number `n` adds to the running block at entry `y` (zero past the grid, where nothing runs). -/
def addAt (c : Dev nD) (n : ℕ) (y : S1024x1024.Idx) : EReal :=
  if h : n < cfg0.N then
    Cert.Moe.Point.addend (grid0.coords ⟨n, h⟩) (iblk m c 0 ⟨n, h⟩) (iblk m c 1 ⟨n, h⟩) (iblk m c 2 ⟨n, h⟩) (iblk m c 3 ⟨n, h⟩)
      (iblk m c 4 ⟨n, h⟩) (iblk m c 5 ⟨n, h⟩) (y 0) (y 1)
  else 0

/-- A tile's first point leaves zero plus its own contribution. -/
theorem reset_apply (c : Dev nD) (n : ℕ) (h : n < cfg0.N) (y : S1024x1024.Idx) :
    reset6 m c n h y = 0 + addAt m c n y := by
  obtain ⟨p, j, rfl⟩ : ∃ (p j : Fin 1024), y = ix2 p j := ⟨y 0, y 1, eq_ix2 y⟩
  unfold reset6 addAt
  rw [dif_pos h]
  refine (Cert.Moe.Point.pay1_apply (grid0.coords ⟨n, h⟩) (iblk m c 0 ⟨n, h⟩) (iblk m c 1 ⟨n, h⟩) (iblk m c 2 ⟨n, h⟩)
    (iblk m c 3 ⟨n, h⟩) (iblk m c 4 ⟨n, h⟩) (iblk m c 5 ⟨n, h⟩) (k0_pay2 (F := Ideal)) p j).trans ?_
  rw [Cert.Moe.Point.pay2_apply]

/-- Every later point adds its contribution to what the point before left. -/
theorem step_apply (c : Dev nD) (n : ℕ) (h : n < cfg0.N) (acc : S1024x1024.Idx → EReal) (y : S1024x1024.Idx) :
    step6 m c n h acc y = acc y + addAt m c n y := by
  obtain ⟨p, j, rfl⟩ : ∃ (p j : Fin 1024), y = ix2 p j := ⟨y 0, y 1, eq_ix2 y⟩
  unfold step6 addAt
  rw [dif_pos h]
  exact Cert.Moe.Point.pay1_apply (grid0.coords ⟨n, h⟩) (iblk m c 0 ⟨n, h⟩) (iblk m c 1 ⟨n, h⟩) (iblk m c 2 ⟨n, h⟩)
    (iblk m c 3 ⟨n, h⟩) (iblk m c 4 ⟨n, h⟩) (iblk m c 5 ⟨n, h⟩) acc p j

/-- After the 88 points of a tile the block holds zero plus the sum of their contributions. -/
theorem fold_apply (c : Dev nD) (b : ℕ) (hb : b + 87 < cfg0.N) (y : S1024x1024.Idx) :
    Pipeline.accAt (reset6 m c) (step6 m c) b 87 hb y = 0 + ∑ s ∈ Finset.range 88, addAt m c (b + s) y :=
  Pipeline.accAt_add_apply (ι := S1024x1024.Idx) (β := EReal) (reset6 m c) (step6 m c) (fun _ => 0) (addAt m c) b 87
    (fun h i => reset_apply m c b h i) (fun n h acc i _ _ => step_apply m c n h acc i) 87 le_rfl hb y

/-- The output array at an entry of tile `run6Of i`: zero plus the sum of that tile's 88 contributions. -/
theorem G6_eq (c : Dev nD) (i : S2048x1024.Idx) (h : 88 * run6Of i + 87 < cfg0.N) :
    G6 m c i = 0 + ∑ s ∈ Finset.range 88, addAt m c (88 * run6Of i + s) (loc6Of i) := by
  unfold G6
  rw [dif_pos h]
  exact fold_apply m c _ h _

end Cert.Moe.Fold

end
-- ==== Proof.KernelBlocks.lean ====
/-
  The input blocks of a grid point, read off the argument arrays.

  The grid has 2 · 8 · 11 points, visited in row-major order, so point number `t` has token-tile coordinate `t / 88`,
  expert coordinate `t / 11 % 8` and hidden-tile coordinate `t % 11`.  A block's entry sits in its array at
  block index × block size + the coordinate inside the block, axis by axis:

  * tokens (and their routing slots): rows `1024·(t/88) + p`;
  * the gate and up matrices: expert `t/11 % 8`, hidden units `256·(t%11) + f`, all features;
  * the down matrix: expert `t/11 % 8`, all features, hidden units `256·(t%11) + f`.

  The arrays the region finds are the arguments themselves: the host's conversions to a narrower float format before the
  call are the identity on exact values, and the routing arrays are passed as they are.
-/
import proofs.«148728_j11716670783496_1_alg».proof.Proof.Gen.KernelIdeal.Value
import Idealize.ShloMosaic.Lib.ValueIdx
import Idealize.ShloMosaic.Lib.StableHlo.Run

noncomputable section

namespace Cert.Moe.Blocks

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The index maps over the grid -/

theorem idx0 : ∀ t : Fin cfg0.N, win0_0.index t (0 : Fin 2) = t.val / 88 ∧ win0_0.index t (1 : Fin 2) = 0 :=
  (by decide +kernel : ∀ t : Fin grid0.N, _)

theorem idx1 : ∀ t : Fin cfg0.N, win0_1.index t (0 : Fin 3) = t.val / 11 % 8 ∧ win0_1.index t (1 : Fin 3) = t.val % 11
    ∧ win0_1.index t (2 : Fin 3) = 0 :=
  (by decide +kernel : ∀ t : Fin grid0.N, _)

theorem idx2 : ∀ t : Fin cfg0.N, win0_2.index t (0 : Fin 3) = t.val / 11 % 8 ∧ win0_2.index t (1 : Fin 3) = t.val % 11
    ∧ win0_2.index t (2 : Fin 3) = 0 :=
  (by decide +kernel : ∀ t : Fin grid0.N, _)

theorem idx3 : ∀ t : Fin cfg0.N, win0_3.index t (0 : Fin 3) = t.val / 11 % 8 ∧ win0_3.index t (1 : Fin 3) = 0
    ∧ win0_3.index t (2 : Fin 3) = t.val % 11 :=
  (by decide +kernel : ∀ t : Fin grid0.N, _)

theorem idx4 : ∀ t : Fin cfg0.N, win0_4.index t (0 : Fin 2) = t.val / 88 ∧ win0_4.index t (1 : Fin 2) = 0 :=
  (by decide +kernel : ∀ t : Fin grid0.N, _)

theorem idx5 : ∀ t : Fin cfg0.N, win0_5.index t (0 : Fin 2) = t.val / 88 ∧ win0_5.index t (1 : Fin 2) = 0 :=
  (by decide +kernel : ∀ t : Fin grid0.N, _)

/-- The expert coordinate of point `t`. -/
theorem coords1 : ∀ t : Fin cfg0.N, (grid0.coords t 1).val = t.val / 11 % 8 :=
  (by decide +kernel : ∀ t : Fin grid0.N, _)

/-! ## The arrays as the region finds them -/

theorem V_v0 (c : Dev nD) : (V m c main_v0 : S2048x1024.Idx → EReal) = m ((c : Thread nD τ).loc main_arg0) := by
  dsimp only [Gen.V, Gen.hostOps0]; after_results; rfl

theorem V_v1 (c : Dev nD) : (V m c main_v1 : S8x2816x1024.Idx → EReal) = m ((c : Thread nD τ).loc main_arg2) := by
  dsimp only [Gen.V, Gen.hostOps0]; after_results; rfl

theorem V_v2 (c : Dev nD) : (V m c main_v2 : S8x2816x1024.Idx → EReal) = m ((c : Thread nD τ).loc main_arg3) := by
  dsimp only [Gen.V, Gen.hostOps0]; after_results; rfl

theorem V_v3 (c : Dev nD) : (V m c main_v3 : S8x1024x2816.Idx → EReal) = m ((c : Thread nD τ).loc main_arg4) := by
  dsimp only [Gen.V, Gen.hostOps0]; after_results; rfl

/-! ## The blocks -/

/-- The token block: row `p` of the block is token `1024·(t/88) + p`. -/
theorem blk0_apply (c : Dev nD) (t : Fin cfg0.N) (p k : Fin 1024) (P : Fin 2048) (hP : P.val = 1024 * (t.val / 88) + p.val) :
    iblk m c 0 t (ix2 p k) = m ((c : Thread nD τ).loc main_arg0) (ix2 P k) := by
  show V m c main_v0 (((cfg0.win 0).blk t).view.emb (ix2 p k)) = _
  rw [V_v0]
  refine congrArg _ (funext fun a => Fin.ext ?_)
  obtain ⟨e0, e1⟩ := idx0 t
  match a with
  | ⟨0, _⟩ => show win0_0.index t (0 : Fin 2) * 1024 + 1 * p.val = P.val; rw [e0, hP]; omega
  | ⟨1, _⟩ => show win0_0.index t (1 : Fin 2) * 1024 + 1 * k.val = k.val; rw [e1]; omega

/-- The gate slab: row `f` of the slab is hidden unit `256·(t%11) + f` of expert `t/11 % 8`. -/
theorem blk1_apply (c : Dev nD) (t : Fin cfg0.N) (u : Fin 1) (f : Fin 256) (k : Fin 1024) (E : Fin 8) (G : Fin 2816)
    (hE : E.val = t.val / 11 % 8) (hG : G.val = 256 * (t.val % 11) + f.val) :
    iblk m c 1 t (ix3 u f k) = m ((c : Thread nD τ).loc main_arg2) (ix3 E G k) := by
  show V m c main_v1 (((cfg0.win 1).blk t).view.emb (ix3 u f k)) = _
  rw [V_v1]
  refine congrArg _ (funext fun a => Fin.ext ?_)
  obtain ⟨e0, e1, e2⟩ := idx1 t
  have hu : u.val = 0 := by omega
  match a with
  | ⟨0, _⟩ => show win0_1.index t (0 : Fin 3) * 1 + 1 * u.val = E.val; rw [e0, hE, hu]; omega
  | ⟨1, _⟩ => show win0_1.index t (1 : Fin 3) * 256 + 1 * f.val = G.val; rw [e1, hG]; omega
  | ⟨2, _⟩ => show win0_1.index t (2 : Fin 3) * 1024 + 1 * k.val = k.val; rw [e2]; omega

/-- The up slab, laid out like the gate slab. -/
theorem blk2_apply (c : Dev nD) (t : Fin cfg0.N) (u : Fin 1) (f : Fin 256) (k : Fin 1024) (E : Fin 8) (G : Fin 2816)
    (hE : E.val = t.val / 11 % 8) (hG : G.val = 256 * (t.val % 11) + f.val) :
    iblk m c 2 t (ix3 u f k) = m ((c : Thread nD τ).loc main_arg3) (ix3 E G k) := by
  show V m c main_v2 (((cfg0.win 2).blk t).view.emb (ix3 u f k)) = _
  rw [V_v2]
  refine congrArg _ (funext fun a => Fin.ext ?_)
  obtain ⟨e0, e1, e2⟩ := idx2 t
  have hu : u.val = 0 := by omega
  match a with
  | ⟨0, _⟩ => show win0_2.index t (0 : Fin 3) * 1 + 1 * u.val = E.val; rw [e0, hE, hu]; omega
  | ⟨1, _⟩ => show win0_2.index t (1 : Fin 3) * 256 + 1 * f.val = G.val; rw [e1, hG]; omega
  | ⟨2, _⟩ => show win0_2.index t (2 : Fin 3) * 1024 + 1 * k.val = k.val; rw [e2]; omega

/-- The down columns: column `f` of the block is hidden unit `256·(t%11) + f` of expert `t/11 % 8`. -/
theorem blk3_apply (c : Dev nD) (t : Fin cfg0.N) (u : Fin 1) (j : Fin 1024) (f : Fin 256) (E : Fin 8) (G : Fin 2816)
    (hE : E.val = t.val / 11 % 8) (hG : G.val = 256 * (t.val % 11) + f.val) :
    iblk m c 3 t (ix3 u j f) = m ((c : Thread nD τ).loc main_arg4) (ix3 E j G) := by
  show V m c main_v3 (((cfg0.win 3).blk t).view.emb (ix3 u j f)) = _
  rw [V_v3]
  refine congrArg _ (funext fun a => Fin.ext ?_)
  obtain ⟨e0, e1, e2⟩ := idx3 t
  have hu : u.val = 0 := by omega
  match a with
  | ⟨0, _⟩ => show win0_3.index t (0 : Fin 3) * 1 + 1 * u.val = E.val; rw [e0, hE, hu]; omega
  | ⟨1, _⟩ => show win0_3.index t (1 : Fin 3) * 1024 + 1 * j.val = j.val; rw [e1]; omega
  | ⟨2, _⟩ => show win0_3.index t (2 : Fin 3) * 256 + 1 * f.val = G.val; rw [e2, hG]; omega

/-- The expert numbers of the token block's routing slots. -/
theorem blk4_apply (c : Dev nD) (t : Fin cfg0.N) (p : Fin 1024) (s : Fin 2) (P : Fin 2048) (hP : P.val = 1024 * (t.val / 88) + p.val) :
    iblk m c 4 t (ix2 p s) = m ((c : Thread nD τ).loc main_arg5) (ix2 P s) := by
  show V m c main_arg5 (((cfg0.win 4).blk t).view.emb (ix2 p s)) = _
  rw [V_main_arg5]
  refine congrArg _ (funext fun a => Fin.ext ?_)
  obtain ⟨e0, e1⟩ := idx4 t
  match a with
  | ⟨0, _⟩ => show win0_4.index t (0 : Fin 2) * 1024 + 1 * p.val = P.val; rw [e0, hP]; omega
  | ⟨1, _⟩ => show win0_4.index t (1 : Fin 2) * 2 + 1 * s.val = s.val; rw [e1]; omega

/-- The weights of the token block's routing slots. -/
theorem blk5_apply (c : Dev nD) (t : Fin cfg0.N) (p : Fin 1024) (s : Fin 2) (P : Fin 2048) (hP : P.val = 1024 * (t.val / 88) + p.val) :
    iblk m c 5 t (ix2 p s) = m ((c : Thread nD τ).loc main_arg1) (ix2 P s) := by
  show V m c main_arg1 (((cfg0.win 5).blk t).view.emb (ix2 p s)) = _
  rw [V_main_arg1]
  refine congrArg _ (funext fun a => Fin.ext ?_)
  obtain ⟨e0, e1⟩ := idx5 t
  match a with
  | ⟨0, _⟩ => show win0_5.index t (0 : Fin 2) * 1024 + 1 * p.val = P.val; rw [e0, hP]; omega
  | ⟨1, _⟩ => show win0_5.index t (1 : Fin 2) * 2 + 1 * s.val = s.val; rw [e1]; omega

end Cert.Moe.Blocks

end
-- ==== Proof.Spec.lean ====
/-
  The routed mixture of gated feed-forward experts, entry by entry.

  Tokens are the rows of `x` (2048 rows of 1024 features).  Expert `e` (eight of them) owns three weight matrices:
  `gw[e]` and `uw[e]` (2816 × 1024) and `dw[e]` (1024 × 2816).  For token `p` and hidden unit `f`

      gate e p f = ∑ k, x[p,k] · gw[e,f,k]            up e p f = ∑ k, x[p,k] · uw[e,f,k]
      hid  e p f = gate · σ(gate) · up                 (σ the logistic function)

  and the expert's answer at output feature `j` is `∑ f, hid e p f · dw[e,j,f]`.  Each token carries two routing
  slots, an expert number `ids[p,s]` and a weight `wt[p,s]`; the weight of expert `e` for token `p` is the sum
  over the two slots of the slot's weight where the slot names `e`, and zero where it does not.  The layer's
  output at `(p, j)` is the sum over the eight experts of answer times weight.
-/
import Idealize.ShloMosaic.PureOps.Ideal
import Idealize.ShloMosaic.Lib.ValueIdx

noncomputable section

open scoped BigOperators

namespace Cert.Moe

open Idealize.ShloMosaic Idealize.ShloMosaic.ValueIdx

/-- Tokens by features. -/
abbrev ST : Shape := ⟨2, ![2048, 1024]⟩
/-- Tokens by routing slots. -/
abbrev SK : Shape := ⟨2, ![2048, 2]⟩
/-- Experts by hidden units by features. -/
abbrev SW : Shape := ⟨3, ![8, 2816, 1024]⟩
/-- Experts by features by hidden units. -/
abbrev SD : Shape := ⟨3, ![8, 1024, 2816]⟩

variable (x : FVec Ideal ST .f32) (wt : FVec Ideal SK .f32) (gw uw : FVec Ideal SW .f32) (dw : FVec Ideal SD .f32)
  (ids : IVec SK 32)

/-- The gate pre-activation of hidden unit `f` of expert `e` for token `p`. -/
def gate (e : Fin 8) (p : Fin 2048) (f : Fin 2816) : EReal := ∑ k : Fin 1024, x (ix2 p k) * gw (ix3 e f k)

/-- The hidden activation: the gate times its logistic, times the up-projection. -/
def hid (e : Fin 8) (p : Fin 2048) (f : Fin 2816) : EReal :=
  gate x gw e p f * Ideal.logistic (gate x gw e p f) * gate x uw e p f

/-- One routing slot's contribution to expert number `n`: the slot's weight if the slot names `n`, else zero. -/
def slot (n : ℕ) (p : Fin 2048) (s : Fin 2) : EReal :=
  Scalar.select (Scalar.cmpi .eq (ids (ix2 p s)) (BitVec.ofNat 32 n)) (wt (ix2 p s)) (0 : EReal)

/-- The routing weight of expert `e` for token `p`. -/
def route (e : Fin 8) (p : Fin 2048) : EReal := ∑ s : Fin 2, slot wt ids e.val p s

/-- Expert `e`'s answer for token `p` at output feature `j`. -/
def answer (e : Fin 8) (p : Fin 2048) (j : Fin 1024) : EReal := ∑ f : Fin 2816, hid x gw uw e p f * dw (ix3 e j f)

/-- The layer's output at token `p` and feature `j`. -/
def moeAt (p : Fin 2048) (j : Fin 1024) : EReal := ∑ e : Fin 8, answer x gw uw dw e p j * route wt ids e p

/-- The layer's output as an array. -/
def moe : FVec Ideal ST .f32 := fun i => moeAt x wt gw uw dw ids (i 0) (i 1)

theorem moe_apply (p : Fin 2048) (j : Fin 1024) : moe x wt gw uw dw ids (ix2 p j) = moeAt x wt gw uw dw ids p j := rfl

end Cert.Moe

end
-- ==== Proof.LibRealLaw.lean ====
/-
  Real-valued extended reals, and distributing a factor over a finite sum of them.

  On the extended reals a product does not distribute over a sum when infinities of both signs meet, so
  `(∑ d, A d) * w = ∑ d, A d * w` is proved for REAL entries only: each `A d` and `w` the coercion of a real number.
  Being real is kept by sums, products, the logistic function and a choice between two real values, so a
  value computed from real inputs by these operations is real.
-/
import Idealize.ShloMosaic.PureOps.Ideal

noncomputable section

open scoped BigOperators

namespace Cert.RealLaw

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (A : ι → EReal) (h : ∀ d, IsReal (A d)) : IsReal (∑ d ∈ s, A d) := by
  classical
  induction s using Finset.induction_on with
  | empty => rw [Finset.sum_empty]; exact IsReal.zero
  | insert a s ha ih => rw [Finset.sum_insert ha]; exact (h a).add ih

/-- The logistic of a real number is a real number: `1 + e^(−r)` is a nonzero real. -/
theorem IsReal.logistic {x : EReal} (hx : IsReal x) : IsReal (Ideal.logistic x) := by
  obtain ⟨r, rfl⟩ := hx
  have hpos : (0 : ℝ) < 1 + Real.exp (-r) := by positivity
  have h1 : (1 : EReal) + Ideal.exp (-(r : EReal)) = ((1 + Real.exp (-r) : ℝ) : EReal) := by
    rw [← EReal.coe_neg, Ideal.exp_coe, EReal.coe_add, EReal.coe_one]
  unfold Ideal.logistic
  rw [h1, Ideal.div_coe (ne_of_gt hpos)]
  exact ⟨1 * (1 / (1 + Real.exp (-r))), by rw [EReal.coe_mul, EReal.coe_one]⟩

/-- A choice between two real values is real. -/
theorem IsReal.select {c : BitVec 1} {x y : EReal} (hx : IsReal x) (hy : IsReal y) : IsReal (Scalar.select c x y) := by
  unfold Scalar.select
  split
  · exact hx
  · exact hy

/-- The coercion of a finite sum of reals is the sum of the coercions. -/
theorem coe_sum {ι : Type*} (s : Finset ι) (a : ι → ℝ) : ((∑ d ∈ s, a d : ℝ) : EReal) = ∑ d ∈ s, (a d : EReal) := by
  classical
  induction s using Finset.induction_on with
  | empty => simp
  | insert b s hb ih => rw [Finset.sum_insert hb, Finset.sum_insert hb, EReal.coe_add, ih]

/-- For real entries a common factor moves inside a finite sum. -/
theorem sum_mul_of_real {ι : Type*} (s : Finset ι) (A : ι → EReal) (w : EReal) (hA : ∀ d, IsReal (A d)) (hw : IsReal w) :
    (∑ d ∈ s, A d) * w = ∑ d ∈ s, A d * w := by
  obtain ⟨v, rfl⟩ := hw
  choose a ha using hA
  simp only [ha]
  rw [← coe_sum, ← EReal.coe_mul, Finset.sum_mul, coe_sum]
  exact Finset.sum_congr rfl fun d _ => EReal.coe_mul _ _

end Cert.RealLaw

end
-- ==== Proof.SpecReal.lean ====
/-
  On real inputs every value of the layer is real.

  The gate and up pre-activations are finite sums of products of reals; the logistic function keeps a real number real;
  a routing weight is a sum of two values each of which is a real weight or zero.  So a hidden activation, every
  partial answer (a sum over any set of hidden units) and every routing weight is real.
-/
import proofs.«148728_j11716670783496_1_alg».proof.Proof.Spec
import proofs.«148728_j11716670783496_1_alg».proof.Proof.LibRealLaw

noncomputable section

open scoped BigOperators

namespace Cert.Moe

open Idealize.ShloMosaic Idealize.ShloMosaic.ValueIdx Cert.RealLaw

variable {x : FVec Ideal ST .f32} {wt : FVec Ideal SK .f32} {gw uw : FVec Ideal SW .f32} {dw : FVec Ideal SD .f32}
  (ids : IVec SK 32)

theorem isReal_gate (hx : ∀ i, IsReal (x i)) (hg : ∀ i, IsReal (gw i)) (e : Fin 8) (p : Fin 2048) (f : Fin 2816) :
    IsReal (gate x gw e p f) :=
  IsReal.sum _ _ fun k => (hx _).mul (hg _)

theorem isReal_hid (hx : ∀ i, IsReal (x i)) (hg : ∀ i, IsReal (gw i)) (hu : ∀ i, IsReal (uw i)) (e : Fin 8) (p : Fin 2048)
    (f : Fin 2816) : IsReal (hid x gw uw e p f) :=
  ((isReal_gate hx hg e p f).mul (isReal_gate hx hg e p f).logistic).mul (isReal_gate hx hu e p f)

theorem isReal_route (hw : ∀ i, IsReal (wt i)) (e : Fin 8) (p : Fin 2048) : IsReal (route wt ids e p) :=
  IsReal.sum _ _ fun s => IsReal.select (hw _) IsReal.zero

end Cert.Moe

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.KernelIsSpec.lean ====
/-
  The kernel's output array is the routed mixture of experts.

  Entry `(P, j)` of the output lies in token tile `P / 1024`, at row `P % 1024` of the tile's block.  The block ends
  holding zero plus the 88 contributions of the tile's points, point `d + 11·e` of the tile being expert `e`'s hidden
  tile `d`:

      (∑ f < 256, hid e P (256·d + f) · dw[e, j, 256·d + f]) · route e P.

  For real inputs the routing weight moves out of the sum over the eleven hidden tiles (the one step that needs the
  entries to be real numbers), the eleven tiles of 256 hidden units are the 2816 hidden units, and what is left is the
  sum over the experts of answer times weight.
-/
import proofs.«148728_j11716670783496_1_alg».proof.Proof.KernelFold
import proofs.«148728_j11716670783496_1_alg».proof.Proof.KernelBlocks
import proofs.«148728_j11716670783496_1_alg».proof.Proof.SpecReal
import proofs.«148728_j11716670783496_1_alg».proof.Proof.LibBlockSum

noncomputable section

open scoped BigOperators

namespace Cert.Moe.Kernel

open Idealize.ShloMosaic Idealize.ShloMosaic.ValueIdx Idealize.ShloMosaic.TcCoe Idealize.SL.Sem Cert.KernelIdeal Cert.KernelIdeal.Gen
  Cert.KernelIdeal.Value Cert.BlockSum Cert.RealLaw

variable (m : (ℓ : Loc nD τ sig) → Buf (Elt Ideal) ℓ)

/-- The hidden activation seen inside a point's blocks is the layer's. -/
theorem hidB_blk (c : Dev nD) (t : Fin cfg0.N) (p : Fin 1024) (f : Fin 256) (P : Fin 2048) (E : Fin 8) (G : Fin 2816)
    (hP : P.val = 1024 * (t.val / 88) + p.val) (hE : E.val = t.val / 11 % 8) (hG : G.val = 256 * (t.val % 11) + f.val) :
    Cert.Moe.Point.hidB (iblk m c 0 t) (iblk m c 1 t) (iblk m c 2 t) p f
      = hid (m ((c : Thread nD τ).loc main_arg0)) (m ((c : Thread nD τ).loc main_arg2)) (m ((c : Thread nD τ).loc main_arg3)) E P G := by
  unfold Cert.Moe.Point.hidB hid gate
  simp only [Cert.Moe.Blocks.blk0_apply m c t p _ P hP, Cert.Moe.Blocks.blk1_apply m c t 0 f _ E G hE hG,
    Cert.Moe.Blocks.blk2_apply m c t 0 f _ E G hE hG]

/-- The routing slot seen inside a point's blocks is the layer's. -/
theorem slotB_blk (c : Dev nD) (t : Fin cfg0.N) (p : Fin 1024) (s : Fin 2) (P : Fin 2048) (E : Fin 8)
    (hP : P.val = 1024 * (t.val / 88) + p.val) (hE : E.val = t.val / 11 % 8) :
    Cert.Moe.Point.slotB (grid0.coords t 1).val (iblk m c 4 t) (iblk m c 5 t) p s
      = slot (m ((c : Thread nD τ).loc main_arg1)) (m ((c : Thread nD τ).loc main_arg5)) E.val P s := by
  unfold Cert.Moe.Point.slotB slot
  rw [Cert.Moe.Blocks.blk4_apply m c t p s P hP, Cert.Moe.Blocks.blk5_apply m c t p s P hP, Cert.Moe.Blocks.coords1 t, hE]

/-- Point `d + 11·e` of token tile `r` adds expert `e`'s partial answer over hidden tile `d`, times the routing weight. -/
theorem addAt_apply (c : Dev nD) (r : Fin 2) (e : Fin 8) (d : Fin 11) (p j : Fin 1024) (P : Fin 2048)
    (hP : P.val = 1024 * r.val + p.val) :
    Cert.Moe.Fold.addAt m c (88 * r.val + (d.val + 11 * e.val)) (ix2 p j)
      = (∑ f : Fin 256, hid (m ((c : Thread nD τ).loc main_arg0)) (m ((c : Thread nD τ).loc main_arg2))
            (m ((c : Thread nD τ).loc main_arg3)) e P (merged d f) * m ((c : Thread nD τ).loc main_arg4) (ix3 e j (merged d f)))
        * route (m ((c : Thread nD τ).loc main_arg1)) (m ((c : Thread nD τ).loc main_arg5)) e P := by
  have hN : cfg0.N = 176 := N_0
  have hr := r.isLt; have he := e.isLt; have hd := d.isLt
  have ht : 88 * r.val + (d.val + 11 * e.val) < cfg0.N := by rw [hN]; omega
  have h88 : (88 * r.val + (d.val + 11 * e.val)) / 88 = r.val := by omega
  have h11 : (88 * r.val + (d.val + 11 * e.val)) / 11 % 8 = e.val := by omega
  have hmod : (88 * r.val + (d.val + 11 * e.val)) % 11 = d.val := by omega
  have hP' : P.val = 1024 * ((88 * r.val + (d.val + 11 * e.val)) / 88) + p.val := by rw [h88]; exact hP
  unfold Cert.Moe.Fold.addAt
  rw [dif_pos ht]
  unfold Cert.Moe.Point.addend route
  refine congrArg₂ (· * ·) (Finset.sum_congr rfl fun f _ => congrArg₂ (· * ·) ?_ ?_) (Finset.sum_congr rfl fun s _ => ?_)
  · exact hidB_blk m c ⟨_, ht⟩ p f P e (merged d f) hP' h11.symm (by rw [hmod]; show f.val + 256 * d.val = _; omega)
  · exact Cert.Moe.Blocks.blk3_apply m c ⟨_, ht⟩ 0 j f e (merged d f) h11.symm (by rw [hmod]; show f.val + 256 * d.val = _; omega)
  · exact slotB_blk m c ⟨_, ht⟩ p s P e hP' h11.symm

/-- On real inputs the kernel's output array is the layer's output. -/
theorem G6_eq_moe (c : Dev nD)
    (hx : ∀ i, IsReal (m ((c : Thread nD τ).loc main_arg0) i)) (hw : ∀ i, IsReal (m ((c : Thread nD τ).loc main_arg1) i))
    (hg : ∀ i, IsReal (m ((c : Thread nD τ).loc main_arg2) i)) (hu : ∀ i, IsReal (m ((c : Thread nD τ).loc main_arg3) i))
    (hd : ∀ i, IsReal (m ((c : Thread nD τ).loc main_arg4) i)) :
    G6 m c = moe (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  funext i
  obtain ⟨P, j, rfl⟩ : ∃ (P : Fin 2048) (j : Fin 1024), i = ix2 P j := ⟨i 0, i 1, eq_ix2 i⟩
  have hPlt := P.isLt; have hjlt := j.isLt
  have hrun : run6Of (ix2 P j) = P.val / 1024 := by
    show 1 * (P.val / 1024 - 0) + 1 * (j.val / 1024 - 0) = _
    omega
  let r : Fin 2 := ⟨P.val / 1024, by omega⟩
  let p : Fin 1024 := ⟨P.val % 1024, Nat.mod_lt _ (by decide)⟩
  have hloc : loc6Of (ix2 P j) = ix2 p j := funext fun a => Fin.ext (by
    match a with
    | ⟨0, _⟩ => rfl
    | ⟨1, _⟩ => exact Nat.mod_eq_of_lt j.isLt)
  have hP : P.val = 1024 * r.val + p.val := (Nat.div_add_mod P.val 1024).symm
  have hN : cfg0.N = 176 := N_0
  rw [Cert.Moe.Fold.G6_eq m c _ (by rw [hrun, hN]; omega), hrun, hloc, moe_apply, zero_add]
  show ∑ s ∈ Finset.range 88, Cert.Moe.Fold.addAt m c (88 * r.val + s) (ix2 p j) = _
  rw [Finset.sum_range (fun s => Cert.Moe.Fold.addAt m c (88 * r.val + s) (ix2 p j))]
  refine (sum_merged (n := 8) (d := 11) (fun s => Cert.Moe.Fold.addAt m c (88 * r.val + s.val) (ix2 p j))).trans ?_
  unfold moeAt answer
  refine Finset.sum_congr rfl fun e _ => ?_
  have hA : ∀ d : Fin 11, IsReal (∑ f : Fin 256, hid (m ((c : Thread nD τ).loc main_arg0)) (m ((c : Thread nD τ).loc main_arg2))
      (m ((c : Thread nD τ).loc main_arg3)) e P (merged d f) * m ((c : Thread nD τ).loc main_arg4) (ix3 e j (merged d f))) :=
    fun d => IsReal.sum _ _ fun f => (isReal_hid hx hg hu e P _).mul (hd _)
  refine (Finset.sum_congr rfl fun d _ => addAt_apply m c r e d p j P hP).trans ?_
  refine (sum_mul_of_real Finset.univ (fun d : Fin 11 => ∑ f : Fin 256, hid (m ((c : Thread nD τ).loc main_arg0))
      (m ((c : Thread nD τ).loc main_arg2)) (m ((c : Thread nD τ).loc main_arg3)) e P (merged d f)
        * m ((c : Thread nD τ).loc main_arg4) (ix3 e j (merged d f))) _ hA (isReal_route _ hw e P)).symm.trans ?_
  refine congrArg (· * _) ?_
  exact (sum_merged (n := 11) (d := 256) (fun G => hid (m ((c : Thread nD τ).loc main_arg0)) (m ((c : Thread nD τ).loc main_arg2))
      (m ((c : Thread nD τ).loc main_arg3)) e P G * m ((c : Thread nD τ).loc main_arg4) (ix3 e j G))).symm

end Cert.Moe.Kernel

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.LibColumnSpread.lean ====
/-
  A per-row quantity spread along the rows of a matrix.

  A vector of `R` entries viewed as an `R × 1` column, and a column spread over `C` columns: at row `p` every column
  holds the vector's entry `p`.  (The companion of the row forms: a vector viewed as one row, a row spread over the
  rows.)
-/
import Idealize.ShloMosaic.Lib.Pipeline.Value
import Idealize.ShloMosaic.Lib.ValueIdx

noncomputable section

namespace Cert.LibColumnSpread

open Idealize.ShloMosaic Idealize.ShloMosaic.ValueIdx

/-- A vector viewed as a column: entry `(p, u)` is the vector's entry `p`. -/
theorem colOfVec_apply {α : Type} {R : ℕ} (hR : R ≠ 1) (v : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h v (ix2 p u) = v (ix1 p) :=
  broadcastInDim_apply ![0] h v (ix2 p u) (ix1 p) (fun a => match a with
    | ⟨0, _⟩ => by show p.val = if R = 1 then 0 else p.val; rw [if_neg hR])

/-- A column spread over `C` columns: entry `(p, k)` is the column's entry of row `p`. -/
theorem col_spread_apply {α : Type} {R C : ℕ} (hR : R ≠ 1) (v : (⟨2, ![R, 1]⟩ : Shape).Idx → α)
    (h : (⟨2, ![R, 1]⟩ : Shape).BroadcastsInDim ⟨2, ![R, C]⟩ ![0, 1]) (p : Fin R) (k : Fin C) :
    broadcastInDim ⟨2, ![R, C]⟩ ![0, 1] h v (ix2 p k) = v (ix2 p (0 : Fin 1)) :=
  broadcastInDim_apply ![0, 1] h v (ix2 p k) (ix2 p (0 : Fin 1)) (fun a => match a with
    | ⟨0, _⟩ => by show p.val = if R = 1 then 0 else p.val; rw [if_neg hR]
    | ⟨1, _⟩ => by show 0 = if (1 : Nat) = 1 then 0 else _; rw [if_pos rfl])

/-- A vector viewed as a column and the column spread over `C` columns: entry `(p, k)` is the vector's entry `p`. -/
theorem colOfVec_spread_apply {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (k : Fin C) :
    broadcastInDim ⟨2, ![R, C]⟩ ![0, 1] h2 (broadcastInDim ⟨2, ![R, 1]⟩ ![0] h1 v) (ix2 p k) = v (ix1 p) :=
  (col_spread_apply hR _ h2 p k).trans (colOfVec_apply hR v h1 p 0)

end Cert.LibColumnSpread

end
-- ==== Proof.LibSigmoid.lean ====
/-
  The sigmoid in its two spellings, at the exact values.

  A kernel applies the one operation `logistic`; a host program may spell the same function in four operations,

      σ(x) = 1 / (1 + exp (−x)) :

  negate, exponential, add to a broadcast constant one, divide a broadcast constant one by the sum. On the extended
  reals `logistic` is defined as that very expression (with the corners −∞ ↦ 0 and +∞ ↦ 1 that the division and the
  exponential give), the host's negate, exponential and quotient are the kernel's, and the pattern 0x3F800000 denotes
  the number one, so the two spellings are one function on whole arrays of any shape, with no condition on the entries.
-/
import Idealize.ShloMosaic.PureOps.Ideal

noncomputable section

namespace LibSigmoid

open Idealize.ShloMosaic

/-- The single-precision pattern 0x3F800000 (sign 0, exponent 127, fraction 0) denotes the number one. -/
theorem ofBits_one_f32 : Ideal.ofBits .f32 0x3F800000#32 = (1 : EReal) := by
  simp [Ideal.ofBits, Ideal.ieee, -EReal.coe_mul]; norm_num

/-- On one value: one divided by one plus the exponential of the negation is the logistic function. -/
theorem sigmoid_scalar (x : EReal) : Ideal.div 1 (1 + Ideal.exp (-x)) = Ideal.logistic x := rfl

/-- On whole arrays of any shape: the host's expansion of the sigmoid — a constant one broadcast from a scalar,
    divided by the sum of a constant one broadcast from a scalar and the exponential of the negated operand — is the
    kernel's `logistic` of the operand. -/
theorem hostSigmoid_eq_logistic {t : Shape}
    (h₁ h₂ : (⟨0, ![]⟩ : Shape).BroadcastsInDim t (![] : Fin 0 → Fin t.rank)) (x : FVec Ideal t .f32) :
    Host.divf (F := Ideal) (broadcastInDim t ![] h₂ (constant (F := Ideal) ⟨0, ![]⟩ .f32 0x3F800000#32))
        (addf (F := Ideal) (broadcastInDim t ![] h₁ (constant (F := Ideal) ⟨0, ![]⟩ .f32 0x3F800000#32))
          (Host.exp (F := Ideal) (Host.negf (F := Ideal) x)))
      = logistic (F := Ideal) x := by
  funext i
  simp only [Host.divf, addf, Host.exp, Host.negf, logistic, broadcastInDim, constant, Ideal.hostDivf_def,
    Ideal.addf_def, Ideal.hostUnary_exp_def, Ideal.hostNegf_def, Ideal.negf_def, Ideal.logistic_def, Ideal.ofBits_def,
    ofBits_one_f32, Ideal.logistic]

end LibSigmoid

end
-- ==== Proof.RefExpert.lean ====
/-
  One expert of the reference program, read entry by entry.

  The reference adds, for each of the eight experts in turn, the expert's answer times the expert's routing weight.
  In the host's spelling, for the expert whose number is `o`:

  * its three weight matrices are cut out of the stacks along the first axis at `o`, the unit axis is dropped and the
    matrix is transposed, so the transposed matrix at `(k, f)` is the stack at `(o, f, k)`;
  * the two up-projections are products of the tokens with those transposed matrices: at `(p, f)` the sum over the
    features `k` of `x[p,k] · w[o,f,k]`;
  * the gated activation is `g · (1 / (1 + exp (−g)))`, which at the exact values is `g · σ(g)`;
  * the down-projection is one more product, at `(p, j)` the sum over the hidden units `f`;
  * the routing weight is the sum, from zero, over the two slots of the slot's weight where the slot names `o` and
    zero where it does not, spread along the row.

  Read at `(p, j)` the expert's summand is therefore `answer e p j · route e p` of the specification, for the expert
  `e` whose number is `o`.  Nothing here needs the entries finite.
-/
import proofs.«148728_j11716670783496_1_alg».proof.Proof.Gen.ReferenceIdeal
import proofs.«148728_j11716670783496_1_alg».proof.Proof.Spec
import proofs.«148728_j11716670783496_1_alg».proof.Proof.LibHostRows
import proofs.«148728_j11716670783496_1_alg».proof.Proof.LibColumnSpread
import proofs.«148728_j11716670783496_1_alg».proof.Proof.LibSigmoid
import Idealize.ShloMosaic.Lib.ValueLayout
import Idealize.ShloMosaic.Lib.IdealHost

noncomputable section

open scoped BigOperators

namespace Cert.Moe.Ref

open Idealize.ShloMosaic Idealize.ShloMosaic.ValueIdx Cert.ReferenceIdeal Cert.ReferenceIdeal.Gen

/-- One expert's block of a stack of matrices: the stack cut along its first axis at `o` reads, at `(0, i, j)`, the
    stack at `(e, i, j)` where `e = o`. -/
theorem slice3_axis0_apply {α : Type} {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (e : Fin n0) (he : e.val = o) (i : Fin n1) (j : Fin n2) :
    extractStridedSlice ⟨3, ![1, n1, n2]⟩ ![o, 0, 0] X h (ix3 (0 : Fin 1) i j) = X (ix3 e i j) :=
  extractStridedSlice_apply _ _ _ _ _ (fun ax => by
    match ax with
    | ⟨0, _⟩ => exact he
    | ⟨1, _⟩ => exact (Nat.zero_add _).symm
    | ⟨2, _⟩ => exact (Nat.zero_add _).symm)

/-- Expert `e`'s matrix, transposed: the stack cut at `e`, its unit axis dropped, rows and columns swapped, reads at
    `(k, f)` the stack at `(e, f, k)`. -/
theorem expertMatT_apply {α : Type} {n0 a b : ℕ} (o : ℕ) (X : (⟨3, ![n0, a, b]⟩ : Shape).Idx → α)
    (h : (⟨3, ![n0, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩)
    (e : Fin n0) (he : e.val = o) (k : Fin b) (f : Fin a) :
    transpose ⟨2, ![b, a]⟩ [1, 0] (shapeCast ⟨2, ![a, b]⟩ (extractStridedSlice ⟨3, ![1, a, b]⟩ ![o, 0, 0] X h) hc) ht (ix2 k f)
      = X (ix3 e f k) := by
  rw [transpose_ix2_apply, shapeCast_1ab_ab_apply, slice3_axis0_apply o X h e he]

/-- The first product (tokens by features times features by hidden units) at `(p, f)`. -/
theorem dotUp_apply (l : FVec Ideal S2048x1024 .f32) (r : FVec Ideal S1024x2816 .f32) (p : Fin 2048) (f : Fin 2816) :
    Host.dotGeneral (F := Ideal) dot_S2048x1024_S1024x2816_S2048x2816_1_0_0_1_n_n none l r (ix2 p f)
      = ∑ k : Fin 1024, l (ix2 p k) * r (ix2 k f) :=
  Cert.LibHostRows.hostDot_apply dot_S2048x1024_S1024x2816_S2048x2816_1_0_0_1_n_n rfl rfl
    (fun i q => by simp [DotDims.lhsIdx, dot_S2048x1024_S1024x2816_S2048x2816_1_0_0_1_n_n]; rfl)
    (fun i q => DotDims.lhsIdx_val_of_single _ (cl := 1) rfl i q)
    (fun i q => DotDims.rhsIdx_val_of_single _ (cr := 0) rfl i q)
    (fun i q => by simp [DotDims.rhsIdx, dot_S2048x1024_S1024x2816_S2048x2816_1_0_0_1_n_n]; rfl)
    none l r p f

/-- The second product (tokens by hidden units times hidden units by features) at `(p, j)`. -/
theorem dotDown_apply (l : FVec Ideal S2048x2816 .f32) (r : FVec Ideal S2816x1024 .f32) (p : Fin 2048) (j : Fin 1024) :
    Host.dotGeneral (F := Ideal) dot_S2048x2816_S2816x1024_S2048x1024_1_0_0_1_n_n none l r (ix2 p j)
      = ∑ f : Fin 2816, l (ix2 p f) * r (ix2 f j) :=
  Cert.LibHostRows.hostDot_apply dot_S2048x2816_S2816x1024_S2048x1024_1_0_0_1_n_n rfl rfl
    (fun i q => by simp [DotDims.lhsIdx, dot_S2048x2816_S2816x1024_S2048x1024_1_0_0_1_n_n]; rfl)
    (fun i q => DotDims.lhsIdx_val_of_single _ (cl := 1) rfl i q)
    (fun i q => DotDims.rhsIdx_val_of_single _ (cr := 0) rfl i q)
    (fun i q => by simp [DotDims.rhsIdx, dot_S2048x2816_S2816x1024_S2048x1024_1_0_0_1_n_n]; rfl)
    none l r p j

/-- The gated activation in the host's spelling, `g · (1 / (1 + exp (−g)))`, at an entry: `g · σ(g)`. -/
theorem silu_apply {t : Shape} (h₁ h₂ : S_.BroadcastsInDim t (![] : Fin 0 → Fin t.rank)) (g : FVec Ideal t .f32) (i : t.Idx) :
    mulf (F := Ideal) g (Host.divf (F := Ideal) (broadcastInDim t ![] h₂ (constant (F := Ideal) S_ .f32 0x3F800000#32))
        (addf (F := Ideal) (broadcastInDim t ![] h₁ (constant (F := Ideal) S_ .f32 0x3F800000#32))
          (Host.exp (F := Ideal) (Host.negf (F := Ideal) g)))) i
      = g i * Ideal.logistic (g i) := by
  rw [LibSigmoid.hostSigmoid_eq_logistic h₁ h₂ g]
  rfl

/-- The routing weight in the host's spelling — the two slots' weights kept where the slot names expert number `o`,
    zero elsewhere, summed over the slots from zero, then spread along the row — at `(p, j)`. -/
theorem routeSpread_apply (o : ℕ) (wt : FVec Ideal S2048x2 .f32) (ids : IVec S2048x2 32) (p : Fin 2048) (j : Fin 1024) :
    broadcastInDim S2048x1024 ![0, 1] bcast_S2048x1_S2048x1024_0_1 (broadcastInDim S2048x1 ![0] bcast_S2048_S2048x1_0
      (Host.reduceAdd (F := Ideal)
        (select (cmpi .eq ids (broadcastInDim S2048x2 ![] bcast_S_S2048x2 (constantI S_ 32 (BitVec.ofNat 32 o))))
          wt (broadcastInDim S2048x2 ![] bcast_S_S2048x2 (id (constant (F := Ideal) S_ .f32 0x00000000#32))))
        (constant (F := Ideal) S_ .f32 0x00000000#32) reducesTo_S2048x2_S2048_d1 h_S_)) (ix2 p j)
      = ∑ s : Fin 2, Scalar.select (Scalar.cmpi .eq (ids (ix2 p s)) (BitVec.ofNat 32 o)) (wt (ix2 p s)) (0 : EReal) := by
  rw [Cert.LibColumnSpread.colOfVec_spread_apply (by decide)]
  rw [hostReduceAdd_apply, Ideal.hostReduceAdd_single reducesTo_S2048x2_S2048_d1 (by decide : S2048x2.Reduces [1] S2048)]
  rw [constant_apply, Ideal.ofBits_zero_f32, zero_add]
  refine Finset.sum_congr rfl fun (s : Fin 2) _ => ?_
  have hl : Shape.Reduces.lift (by decide : S2048x2.Reduces [1] S2048) (ix1 p) s = ix2 p s := by
    funext ax; apply Fin.ext
    match ax with
    | ⟨0, _⟩ => rfl
    | ⟨1, _⟩ => rfl
  rw [hl, select_apply, broadcastInDim_scalar_apply]
  show Scalar.select (IntOp.cmpi .eq (ids (ix2 p s))
      (broadcastInDim S2048x2 ![] bcast_S_S2048x2 (constantI S_ 32 (BitVec.ofNat 32 o)) (ix2 p s)))
    (wt (ix2 p s)) (Ideal.ofBits .f32 0x00000000#32) = _
  rw [broadcastInDim_scalar_apply, Ideal.ofBits_zero_f32]
  rfl

/-- One expert's summand in the host's spelling, for the expert whose number is `o`: the expert's answer (its three
    matrices cut out of the stacks at `o`; the two up-projections, the gated activation, the down-projection) times
    the expert's routing weight spread along the rows. -/
def expertTerm (o : ℕ) (hw : S8x2816x1024.Slices ![o, 0, 0] S1x2816x1024) (hd : S8x1024x2816.Slices ![o, 0, 0] S1x1024x2816)
    (x : FVec Ideal S2048x1024 .f32) (wt : FVec Ideal S2048x2 .f32) (gw uw : FVec Ideal S8x2816x1024 .f32)
    (dw : FVec Ideal S8x1024x2816 .f32) (ids : IVec S2048x2 32) : FVec Ideal S2048x1024 .f32 :=
  mulf (F := Ideal) (Host.dotGeneral (F := Ideal) dot_S2048x2816_S2816x1024_S2048x1024_1_0_0_1_n_n none (mulf (F := Ideal) (mulf (F := Ideal) (Host.dotGeneral (F := Ideal) dot_S2048x1024_S1024x2816_S2048x2816_1_0_0_1_n_n none x (transpose S1024x2816 [1, 0] (shapeCast _ (extractStridedSlice S1x2816x1024 ![o, 0, 0] gw hw) shapeCasts_S1x2816x1024_S2816x1024) transposes_S2816x1024_S1024x2816_1_0)) (Host.divf (F := Ideal) (broadcastInDim S2048x2816 ![] bcast_S_S2048x2816 (constant (F := Ideal) S_ .f32 0x3F800000#32)) (addf (F := Ideal) (broadcastInDim S2048x2816 ![] bcast_S_S2048x2816 (constant (F := Ideal) S_ .f32 0x3F800000#32)) (Host.exp (F := Ideal) (Host.negf (F := Ideal) (Host.dotGeneral (F := Ideal) dot_S2048x1024_S1024x2816_S2048x2816_1_0_0_1_n_n none x (transpose S1024x2816 [1, 0] (shapeCast _ (extractStridedSlice S1x2816x1024 ![o, 0, 0] gw hw) shapeCasts_S1x2816x1024_S2816x1024) transposes_S2816x1024_S1024x2816_1_0))))))) (Host.dotGeneral (F := Ideal) dot_S2048x1024_S1024x2816_S2048x2816_1_0_0_1_n_n none x (transpose S1024x2816 [1, 0] (shapeCast _ (extractStridedSlice S1x2816x1024 ![o, 0, 0] uw hw) shapeCasts_S1x2816x1024_S2816x1024) transposes_S2816x1024_S1024x2816_1_0))) (transpose S2816x1024 [1, 0] (shapeCast _ (extractStridedSlice S1x1024x2816 ![o, 0, 0] dw hd) shapeCasts_S1x1024x2816_S1024x2816) transposes_S1024x2816_S2816x1024_1_0)) (broadcastInDim S2048x1024 ![0, 1] bcast_S2048x1_S2048x1024_0_1 (broadcastInDim S2048x1 ![0] bcast_S2048_S2048x1_0 (Host.reduceAdd (F := Ideal) (select (cmpi .eq ids (broadcastInDim S2048x2 ![] bcast_S_S2048x2 (constantI S_ 32 (BitVec.ofNat 32 o)))) wt (broadcastInDim S2048x2 ![] bcast_S_S2048x2 (id (constant (F := Ideal) S_ .f32 0x00000000#32)))) (constant (F := Ideal) S_ .f32 0x00000000#32) reducesTo_S2048x2_S2048_d1 h_S_)))

/-- The summand of expert `e` at `(p, j)` is the expert's answer there times its routing weight for token `p`. -/
theorem expertTerm_apply (o : ℕ) (hw : S8x2816x1024.Slices ![o, 0, 0] S1x2816x1024)
    (hd : S8x1024x2816.Slices ![o, 0, 0] S1x1024x2816)
    (x : FVec Ideal S2048x1024 .f32) (wt : FVec Ideal S2048x2 .f32) (gw uw : FVec Ideal S8x2816x1024 .f32)
    (dw : FVec Ideal S8x1024x2816 .f32) (ids : IVec S2048x2 32)
    (e : Fin 8) (he : e.val = o) (p : Fin 2048) (j : Fin 1024) :
    expertTerm o hw hd x wt gw uw dw ids (ix2 p j)
      = Cert.Moe.answer x gw uw dw e p j * Cert.Moe.route wt ids e p := by
  unfold expertTerm
  rw [mulf_apply, routeSpread_apply, dotDown_apply]
  unfold Cert.Moe.answer Cert.Moe.route Cert.Moe.slot
  rw [he]
  congr 1
  refine Finset.sum_congr rfl fun f _ => ?_
  rw [expertMatT_apply o dw hd _ _ e he, mulf_apply, silu_apply, dotUp_apply, dotUp_apply]
  unfold Cert.Moe.hid Cert.Moe.gate
  simp only [expertMatT_apply o _ hw _ _ e he]

end Cert.Moe.Ref

end
-- ==== Proof.RefIsSpec.lean ====
/-
  The reference program computes the specification's layer output.

  The reference's result is one long term: a zero array to which the eight experts' summands are added one after the
  other.  Each summand, read at `(p, j)`, is the expert's answer there times the expert's routing weight for token
  `p`; the zero pattern is the number zero; so the result at `(p, j)` is

      0 + a₀·r₀ + a₁·r₁ + … + a₇·r₇ ,

  the specification's sum over the eight experts written out.  This holds for every input, with no condition on the
  entries: only `0 + a = a` and the order in which a sum over eight indices is written out are used.
-/
import proofs.«148728_j11716670783496_1_alg».proof.Proof.RefRun
import proofs.«148728_j11716670783496_1_alg».proof.Proof.RefExpert

noncomputable section

open scoped BigOperators

namespace Cert.Moe.Ref

open Idealize.ShloMosaic Idealize.ShloMosaic.ValueIdx Cert.ReferenceIdeal Cert.ReferenceIdeal.Gen
  Idealize.ShloMosaic.TcCoe Idealize.SL.Sem

set_option maxRecDepth 8192 in
/-- The reference's result is a zero array to which the eight experts' summands are added one after the other. -/
theorem res_eq_sum (m : (ℓ : Loc nD τ sig) → Buf (Elt Ideal) ℓ) (c : Dev nD) :
    Cert.ReferenceIdeal.Value.res_main_v176 (F := Ideal) m c
      = (addf (F := Ideal) (addf (F := Ideal) (addf (F := Ideal) (addf (F := Ideal) (addf (F := Ideal) (addf (F := Ideal) (addf (F := Ideal) (addf (F := Ideal) (broadcastInDim S2048x1024 ![] bcast_S_S2048x1024 (constant (F := Ideal) S_ .f32 0x00000000#32))
        (expertTerm 0 slices_S8x2816x1024_S1x2816x1024_0_0_0 slices_S8x1024x2816_S1x1024x2816_0_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 1 slices_S8x2816x1024_S1x2816x1024_1_0_0 slices_S8x1024x2816_S1x1024x2816_1_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 2 slices_S8x2816x1024_S1x2816x1024_2_0_0 slices_S8x1024x2816_S1x1024x2816_2_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 3 slices_S8x2816x1024_S1x2816x1024_3_0_0 slices_S8x1024x2816_S1x1024x2816_3_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 4 slices_S8x2816x1024_S1x2816x1024_4_0_0 slices_S8x1024x2816_S1x1024x2816_4_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 5 slices_S8x2816x1024_S1x2816x1024_5_0_0 slices_S8x1024x2816_S1x1024x2816_5_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 6 slices_S8x2816x1024_S1x2816x1024_6_0_0 slices_S8x1024x2816_S1x1024x2816_6_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (expertTerm 7 slices_S8x2816x1024_S1x2816x1024_7_0_0 slices_S8x1024x2816_S1x1024x2816_7_0_0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) := by
  unfold Cert.ReferenceIdeal.Value.res_main_v176
  rfl

/-- The reference's result is the specification's layer output, at every entry and for every input: no condition on
    the entries.  At `(p, j)` the eight summands are the eight terms `answer e p j · route e p`, added in the
    experts' order onto zero, which is the specification's sum over the experts. -/
theorem res_eq_moe (m : (ℓ : Loc nD τ sig) → Buf (Elt Ideal) ℓ) (c : Dev nD) :
    Cert.ReferenceIdeal.Value.res_main_v176 (F := Ideal) m c
      = Cert.Moe.moe (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [res_eq_sum]
  funext i
  obtain ⟨p, j, rfl⟩ : ∃ (p : Fin 2048) (j : Fin 1024), i = ix2 p j := ⟨i 0, i 1, eq_ix2 i⟩
  rw [Cert.Moe.moe_apply]
  simp only [addf_apply]
  rw [expertTerm_apply 0 _ _ _ _ _ _ _ _ (0 : Fin 8) rfl, expertTerm_apply 1 _ _ _ _ _ _ _ _ (1 : Fin 8) rfl,
    expertTerm_apply 2 _ _ _ _ _ _ _ _ (2 : Fin 8) rfl, expertTerm_apply 3 _ _ _ _ _ _ _ _ (3 : Fin 8) rfl,
    expertTerm_apply 4 _ _ _ _ _ _ _ _ (4 : Fin 8) rfl, expertTerm_apply 5 _ _ _ _ _ _ _ _ (5 : Fin 8) rfl,
    expertTerm_apply 6 _ _ _ _ _ _ _ _ (6 : Fin 8) rfl, expertTerm_apply 7 _ _ _ _ _ _ _ _ (7 : Fin 8) rfl]
  rw [broadcastInDim_scalar_apply, constant_apply, Ideal.ofBits_zero_f32, zero_add]
  unfold Cert.Moe.moeAt
  rw [Fin.sum_univ_eight]

end Cert.Moe.Ref

end
-- ==== Proof.Finite.lean ====
/-
  Finiteness of the inputs, read back from the precondition.

  The precondition takes, for each of the five real-valued arrays `a`, the entrywise test `|a i| < +∞` (the bound is
  the word `0x7F800000`, which encodes `+∞`), folds the tests of one array by `and` over all its axes, and joins the
  five flags by `and`.  In the extended reals `|x| = max x (-x)` is `⊤` at both `⊥` and `⊤`, so `|x| < ⊤` holds exactly
  at the reals.  Hence: if the joined flag is 1, each of the five folds is 1, so every entrywise test is 1, so every
  entry of every array is a real number.
-/
import proofs.«148728_j11716670783496_1_alg».proof.Proof.Gen.Pre_finite_inputs
import Idealize.ShloMosaic.Lib.ReduceAll
import Idealize.ShloMosaic.Lib.ValueIdx
import Idealize.ShloMosaic.PureOps.Ideal

namespace Cert.Moe.Finite

open Idealize.ShloMosaic

/-- An extended real whose absolute value `max x (-x)` lies strictly below `⊤` is a real: at `⊥` and at `⊤` the
    absolute value is `⊤`, and `⊤ < ⊤` is false. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The word `0x7F800000` (sign 0, exponent all ones, fraction 0) encodes `+∞`. -/
theorem inf_pattern : Ideal.ofBits .f32 0x7F800000#32 = (⊤ : EReal) := by
  simp [Ideal.ofBits, Ideal.ieee]

/-- One array's flag, over an arbitrary shape: if the fold by `and` of the entrywise tests `|a i| < +∞` into a
    one-index result is 1, then every entry of `a` is a real. -/
theorem real_of_all {s t u : Shape} [Subsingleton t.Idx] {axes : List (Fin s.rank)} (a : FVec Ideal s .f32)
    (hb : (⟨0, ![]⟩ : Shape).BroadcastsInDim s (![] : Fin 0 → Fin s.rank)) (hr : s.ReducesTo axes t) (hu : 0 < u.numel)
    (init : IVec u 1) (j : t.Idx)
    (e : Host.reduce IntOp.andi
          (cmpf .olt (Host.absf a) (broadcastInDim s ![] hb (constant (F := Ideal) (⟨0, ![]⟩ : Shape) .f32 0x7F800000#32)))
          init hr hu j = 1#1) (i : s.Idx) : ∃ r : ℝ, a i = (r : EReal) := by
  -- the fold being 1, the test at `i` is 1; the test at `i` is `max (a i) (-(a i)) < ofBits 0x7F800000`
  have h1 := Host.reduce_andi_all _ init hr hu j e i
  refine real_of_abs_lt_top (a i) ?_
  rw [← inf_pattern]
  exact h1

end Cert.Moe.Finite

namespace Cert.Moe

open Idealize.ShloMosaic

/-- The precondition holding (its one flag is 1) makes every entry of each of the five real-valued arrays a real. -/
theorem finite_of_pre
    (a0 : FVec Ideal Cert.Pre_finite_inputs.S2048x1024 .f32) (a1 : FVec Ideal Cert.Pre_finite_inputs.S2048x2 .f32)
    (a2 a3 : FVec Ideal Cert.Pre_finite_inputs.S8x2816x1024 .f32) (a4 : FVec Ideal Cert.Pre_finite_inputs.S8x1024x2816 .f32)
    (a5 : IVec Cert.Pre_finite_inputs.S2048x2 32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the result has rank 0, hence exactly one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the flag is (((f0 ∧ f1) ∧ f2) ∧ f3) ∧ f4: peel the five folds off
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨Finite.real_of_all a0 _ _ _ _ _ e0, Finite.real_of_all a1 _ _ _ _ _ e1, Finite.real_of_all a2 _ _ _ _ _ e2,
    Finite.real_of_all a3 _ _ _ _ _ e3, Finite.real_of_all a4 _ _ _ _ _ e4⟩

end Cert.Moe
-- ==== Proof.lean ====
/-
  The certificate of a routed mixture of eight gated feed-forward experts over 2048 tokens.

  Both programs compute, for token `p` and output feature `j`,

      ∑ e < 8, (∑ f < 2816, hid e p f · dw[e,j,f]) · route e p

  (Proof/Spec.lean).  The reference does so expert by expert with whole matrix products.  The kernel walks a grid of
  token tiles × experts × hidden tiles and accumulates, into the token tile's output block, the partial answer over
  256 hidden units times the routing weight.  The two agree because a sum may be taken in blocks (no condition), and
  because the routing weight of an expert moves out of the sum over that expert's hidden tiles — which on the extended
  reals needs the entries to be real numbers: this is where the precondition that the inputs are finite is used.
  The conversions to a narrower float format are the identity on exact values, and the host's
  `1 / (1 + exp (−x))` is the kernel's logistic function.

  The frames of the two kernel programs are the generated ones; the reference's frame is its run with the result dropped.
-/
import proofs.«148728_j11716670783496_1_alg».proof.Defs
import proofs.«148728_j11716670783496_1_alg».proof.Proof.Gen.Kernel.Frame
import proofs.«148728_j11716670783496_1_alg».proof.Proof.Gen.KernelIdeal.Value
import proofs.«148728_j11716670783496_1_alg».proof.Proof.Gen.Pre_finite_inputs
import proofs.«148728_j11716670783496_1_alg».proof.Proof.RefRun
import proofs.«148728_j11716670783496_1_alg».proof.Proof.KernelIsSpec
import proofs.«148728_j11716670783496_1_alg».proof.Proof.RefIsSpec
import proofs.«148728_j11716670783496_1_alg».proof.Proof.Finite
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the layer's output of those arguments: the
    kernel by its accumulated blocks (real inputs), the reference by its eight experts. -/
theorem algebraic_KernelIdeal_ReferenceIdeal : algebraic_KernelIdeal_ReferenceIdeal := by
  intro m ρ m' ρ' hpre hagree
  refine ⟨fun c => Cert.Moe.moe (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.Value.run (F := Ideal) m ρ)
    obtain ⟨h0, h1, h2, h3, h4⟩ := Cert.Moe.finite_of_pre _ _ _ _ _ _ (hpre c)
    exact Cert.Moe.Kernel.G6_eq_moe m c h0 h1 h2 h3 h4
  · refine (θ_run Cert.ReferenceIdeal.defs _ _).mono (fun _ h c => ⟨(h c).1.trans ?_, (h c).2⟩)
      (Cert.ReferenceIdeal.Value.run (F := Ideal) m' ρ')
    rw [Cert.Moe.Ref.res_eq_moe m' c, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
